-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S2x600000 : Shape := ⟨2, ![2, 600000]⟩
abbrev S130x128 : Shape := ⟨2, ![130, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S130x128 : S_.BroadcastsInDim S130x128 (![] : Fin 0 → Fin S130x128.rank)
  reducesTo_S130x128_S_d0_1 : S130x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part3 {F : FTy → Type} [FloatOps F] (main_arg14 : FVec F S_ .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S_ .f32 := Host.absf main_arg14
  let main_cst_20 : FVec F S_ .f32 := constant S_ .f32 0x7F800000#32
  let main_v55 : IVec S_ 1 := cmpf .olt main_v54 main_cst_20
  let main_c_21 : IVec S_ 1 := constantI S_ 1 1#1
  let main_v56 : IVec S_ 1 := (fun x v => Host.reduce IntOp.andi x v reducesTo_S_S_d h_S_) main_v55 main_c_21
  let main_v57 : IVec S_ 1 := andi main_v53 main_v56
  main_v57

def fn_part2 {F : FTy → Type} [FloatOps F] (main_arg10 : FVec F S128x128 .f32) (main_arg11 : FVec F S128 .f32) (main_arg12 : FVec F S128x1 .f32) (main_arg13 : FVec F S1 .f32) (main_arg14 : FVec F S_ .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg12
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg14 main_v48 main_v49 main_v50

def fn_part1 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x1 .f32) (main_arg13 : FVec F S1 .f32) (main_arg14 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x128 .f32) (main_arg1 : IVec S100000 32) (main_arg2 : IVec S100000 32) (main_arg3 : IVec S2x600000 32) (main_arg4 : FVec F S100000 .f32) (main_arg5 : FVec F S130x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x1 .f32) (main_arg13 : FVec F S1 .f32) (main_arg14 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg4
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S130x128 .f32 := Host.absf main_arg5
  let main_cst_2 : FVec F S_ .f32 := constant S_ .f32 0x7F800000#32
  let main_v10 : FVec F S130x128 .f32 := broadcastInDim S130x128 ![] bcast_S_S130x128 main_cst_2
  let main_v11 : IVec S130x128 1 := cmpf .olt main_v9 main_v10
  let main_c_3 : IVec S_ 1 := constantI S_ 1 1#1
  let main_v12 : IVec S_ 1 := (fun x v => Host.reduce IntOp.andi x v reducesTo_S130x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_v13 main_v16
-- ==== Kernel.lean ====
abbrev S100000x128 : Shape := ⟨2, ![100000, 128]⟩
abbrev S100000 : Shape := ⟨1, ![100000]⟩
abbrev S2x600000 : Shape := ⟨2, ![2, 600000]⟩
abbrev S130x128 : Shape := ⟨2, ![130, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S100000x1 : Shape := ⟨2, ![100000, 1]⟩
abbrev S100000x130 : Shape := ⟨2, ![100000, 130]⟩
abbrev S1x128 : Shape := ⟨2, ![1, 128]⟩
abbrev S5000x130 : Shape := ⟨2, ![5000, 130]⟩
abbrev S5000x128 : Shape := ⟨2, ![5000, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x1 : Shape := ⟨2, ![1, 1]⟩
abbrev S5000x1 : Shape := ⟨2, ![5000, 1]⟩

abbrev nBuf : Space → Nat
  | .hbm => 75
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100000, .i32⟩
  | .hbm, ⟨3, _⟩ => ⟨S2x600000, .i32⟩
  | .hbm, ⟨4, _⟩ => ⟨S100000, .f32⟩
  | .hbm, ⟨5, _⟩ => ⟨S130x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S_, .f32⟩
  | .hbm, ⟨15, _⟩ => ⟨S100000x1, .i32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x1, .i32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S100000x130, .f32⟩
  | .hbm, ⟨26, _⟩ => ⟨S1x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S1x600000, .i32⟩
  | .hbm, ⟨31, _⟩ => ⟨S600000, .i32⟩
  | .hbm, ⟨32, _⟩ => ⟨S1x600000, .i32⟩
  | .hbm, ⟨33, _⟩ => ⟨S600000, .i32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S_, .f32⟩
  | .hbm, ⟨44, _⟩ => ⟨S100000x128, .f32⟩
  | .hbm, ⟨45, _⟩ => ⟨S600000x1, .i32⟩
  | .hbm, ⟨46, _⟩ => ⟨S100000x128, .f32⟩
  | .hbm, ⟨47, _⟩ => ⟨S_, .f32⟩
  | .hbm, ⟨48, _⟩ => ⟨S600000x1, .f32⟩
  | .hbm, ⟨49, _⟩ => ⟨S_, .f32⟩
  | .hbm, ⟨50, _⟩ => ⟨S100000x1, .f32⟩
  | .hbm, ⟨51, _⟩ => ⟨S600000x1, .i32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S1x1, .f32⟩
  | .hbm, ⟨60, _⟩ => ⟨S100000x1, .f32⟩
  | .hbm, ⟨61, _⟩ => ⟨S100000, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S_, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000, .f32⟩
  | .local _ .vmem, ⟨0, _⟩ => ⟨S5000x130, .f32⟩
  | .local _ .vmem, ⟨1, _⟩ => ⟨S5000x130, .f32⟩
  | .local _ .vmem, ⟨2, _⟩ => ⟨S130x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S128x1, .f32⟩
  | .local _ .vmem, ⟨20, _⟩ => ⟨S1x1, .f32⟩
  | .local _ .vmem, ⟨21, _⟩ => ⟨S5000x1, .f32⟩
  | .local _ .vmem, ⟨22, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S130x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S100000_S100000x1_0 : S100000.BroadcastsInDim S100000x1 (![0] : Fin 1 → Fin S100000x1.rank)
  bcast_S_S100000x1 : S_.BroadcastsInDim S100000x1 (![] : Fin 0 → Fin S100000x1.rank)
  concatenates_S100000x128_S100000x1_S100000x1_S100000x130_d1 : Shape.Concatenates [S100000x128, S100000x1, S100000x1] S100000x130 1
  shapeCasts_S128_S1x128 : S128.ShapeCasts S1x128
  inb_S5000x130_S5000x130_0_0 : ∀ a, (![0, 0] : Fin 2 → Nat) a + S5000x130.size a ≤ S5000x130.size a
  h_S5000x130 : 0 < S5000x130.numel
  shapeCasts_S5000x130_S5000x130 : S5000x130.ShapeCasts S5000x130
  bitsLt_bf16_f32 : FTy.bits .bf16 < FTy.bits .f32
  inb_S130x128_S130x128_0_0 : ∀ a, (![0, 0] : Fin 2 → Nat) a + S130x128.size a ≤ S130x128.size a
  h_S130x128 : 0 < S130x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S100000x1_S100000x128_0_1 : S100000x1.BroadcastsInDim S100000x128 (![0, 1] : Fin 2 → Fin S100000x128.rank)
  shapeCasts_S1_S1x1 : S1.ShapeCasts S1x1
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  bcast_S_S100000 : S_.BroadcastsInDim S100000 (![] : Fin 0 → Fin S100000.rank)
  dot_S5000x130_S130x128_S5000x128_1_0_0_1_n_n_wf : DotDims.WF S5000x130 S130x128 S5000x128 [1] [0] [0] [1] [] []
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x130.size a ≤ S100000x130.size a
  hwx0_0 : ∀ i : grid0.Coords, EltTy.bits .f32 = 32 ∨ (Rect.block (s := S100000x130) S5000x130.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S130x128.size a ≤ S130x128.size a
  hwx0_1 : ∀ i : grid0.Coords, EltTy.bits .f32 = 32 ∨ (Rect.block (s := S130x128) S130x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .f32 = 32 ∨ (Rect.block (s := S128x1) S128x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S100000x1.size a
  hwx1_8 : ∀ i : grid1.Coords, EltTy.bits .f32 = 32 ∨ (Rect.block (s := S100000x1) S5000x1.size (cc1_transform_8 i) (hinb1_8 i)).WholeWords (EltTy.packing .f32)

variable [Facts₀]

def dot_S5000x130_S130x128_S5000x128_1_0_0_1_n_n : DotDims S5000x130 S130x128 S5000x128 where
  lhsContracting := [1]
  rhsContracting := [0]
  lhsNonContracting := [0]
  rhsNonContracting := [1]
  lhsBatch := []
  rhsBatch := []
  wf := dot_S5000x130_S130x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v8) S5000x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S130x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000 : Shape := ⟨1, ![100000]⟩
abbrev S2x600000 : Shape := ⟨2, ![2, 600000]⟩
abbrev S130x128 : Shape := ⟨2, ![130, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S100000x1 : Shape := ⟨2, ![100000, 1]⟩
abbrev S100000x130 : Shape := ⟨2, ![100000, 130]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100000, .i32⟩
  | .hbm, ⟨3, _⟩ => ⟨S2x600000, .i32⟩
  | .hbm, ⟨4, _⟩ => ⟨S100000, .f32⟩
  | .hbm, ⟨5, _⟩ => ⟨S130x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S_, .f32⟩
  | .hbm, ⟨15, _⟩ => ⟨S100000x1, .i32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x1, .i32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S100000x130, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S1x600000, .i32⟩
  | .hbm, ⟨35, _⟩ => ⟨S600000, .i32⟩
  | .hbm, ⟨36, _⟩ => ⟨S1x600000, .i32⟩
  | .hbm, ⟨37, _⟩ => ⟨S600000, .i32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S100000x128, .f32⟩
  | .hbm, ⟨49, _⟩ => ⟨S600000x1, .i32⟩
  | .hbm, ⟨50, _⟩ => ⟨S100000x128, .f32⟩
  | .hbm, ⟨51, _⟩ => ⟨S_, .f32⟩
  | .hbm, ⟨52, _⟩ => ⟨S600000x1, .f32⟩
  | .hbm, ⟨53, _⟩ => ⟨S_, .f32⟩
  | .hbm, ⟨54, _⟩ => ⟨S100000x1, .f32⟩
  | .hbm, ⟨55, _⟩ => ⟨S600000x1, .i32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x1, .f32⟩
  | .hbm, ⟨73, _⟩ => ⟨S1x1, .f32⟩
  | .hbm, ⟨74, _⟩ => ⟨S100000x1, .f32⟩
  | .hbm, ⟨75, _⟩ => ⟨S100000x1, .f32⟩
  | .hbm, ⟨76, _⟩ => ⟨S100000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call0_cst : Ref sig .tc := ⟨.hbm, 68, rfl⟩
abbrev main_call0_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S_S100000x1 : S_.BroadcastsInDim S100000x1 (![] : Fin 0 → Fin S100000x1.rank)
  concatenates_S100000x128_S100000x1_S100000x1_S100000x130_d1 : Shape.Concatenates [S100000x128, S100000x1, S100000x1] S100000x130 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S100000 : S_.BroadcastsInDim S100000 (![] : Fin 0 → Fin S100000.rank)
  dot_S100000x130_S130x128_S100000x128_1_0_0_1_n_n_wf : DotDims.WF S100000x130 S130x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x1_S100000x1_1_0_0_1_n_n_wf : DotDims.WF S100000x128 S128x1 S100000x1 [1] [0] [0] [1] [] []

variable [Facts₀]

def dot_S100000x130_S130x128_S100000x128_1_0_0_1_n_n : DotDims S100000x130 S130x128 S100000x128 where
  lhsContracting := [1]
  rhsContracting := [0]
  lhsNonContracting := [0]
  rhsNonContracting := [1]
  lhsBatch := []
  rhsBatch := []
  wf := dot_S100000x130_S130x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Reg0Bits.lean ====
/-
  One kernel region of the program, seen from the arrays it finds in memory: which rows each grid point's
  block holds, what the body leaves in its output buffers (its single whole-buffer store per output, of the
  payload of the loaded blocks), the body's triple, and the pipeline's proof data with its obligation.
-/
import proofs.«163184_j48885317763310_1_alg».proof.Proof.Gen.Kernel.Launch
import proofs.«163184_j48885317763310_1_alg».proof.Proof.Gen.Kernel.Skeleton
import proofs.«163184_j48885317763310_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the kernel `cc0__proj_kernel_body` at the contents `V` the region finds in the buffers -/

section Region
variable (V : (c : Dev nD) → (b : Ref sig .tc) → Buf (Elt F) ((c : Thread nD τ).loc b))

/-- Window `w`'s block at grid point `t`: the rows (and columns) of its array that the point's index map selects, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the point fetches it or the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/

abbrev rA0 : Rect S5000x130 := Rect.unit (s := S5000x130) ![0, 0] S5000x130.size inb_S5000x130_S5000x130_0_0
abbrev rB0 : Rect S130x128 := Rect.unit (s := S130x128) ![0, 0] S130x128.size inb_S130x128_S130x128_0_0
abbrev rC0 : Rect S1x128 := Rect.unit (s := S1x128) ![0, 0] S1x128.size inb_S1x128_S1x128_0_0
abbrev rD0 : Rect S128x128 := Rect.unit (s := S128x128) ![0, 0] S128x128.size inb_S128x128_S128x128_0_0
abbrev rE0 : Rect S5000x128 := Rect.unit (s := S5000x128) ![0, 0] S5000x128.size inb_S5000x128_S5000x128_0_0

/-! ## What the body leaves in each output window's buffer: its one whole-buffer store, of the payload of the loaded input blocks -/

def out0_5 (x0 : Vec F S5000x130 .f32) (x1 : Vec F S130x128 .f32) (x2 : Vec F S1x128 .f32) : Vec F S5000x128 .f32 :=
  View.canon [⟨rE0, k0_pay1 (View.ld x0 rA0) (View.ld x1 rB0) (View.ld x2 rC0)⟩]

/-- The one store covers the whole buffer. -/
theorem cover0_5 (p0 : Vec F S5000x128 .f32) (y : S5000x128.Idx) :
    ∃ pc ∈ ([⟨rE0, p0⟩] : List (View.Piece (Elt F) S5000x128 .f32)), y ∈ pc.1.set :=
  View.cover_of_tiled [⟨rE0, p0⟩] S5000x128.size (by rfl) y

def out0_6 (x0 : Vec F S5000x130 .f32) (x1 : Vec F S130x128 .f32) (x2 : Vec F S1x128 .f32) (x3 : Vec F S128x128 .f32) (x4 : Vec F S1x128 .f32) : Vec F S5000x128 .f32 :=
  View.canon [⟨rE0, k0_pay2 (View.ld x0 rA0) (View.ld x1 rB0) (View.ld x2 rC0) (View.ld x3 rD0) (View.ld x4 rC0)⟩]

/-- The one store covers the whole buffer. -/
theorem cover0_6 (p0 : Vec F S5000x128 .f32) (y : S5000x128.Idx) :
    ∃ pc ∈ ([⟨rE0, p0⟩] : List (View.Piece (Elt F) S5000x128 .f32)), y ∈ pc.1.set :=
  View.cover_of_tiled [⟨rE0, p0⟩] S5000x128.size (by rfl) y

/-! ## The body's triple -/

set_option maxHeartbeats 4000000 in
/-- The kernel body run on whole staging buffers, the inputs' holding `xW` and the outputs' anything: it ends with the inputs' unchanged and each output's holding `out0_W` of the inputs'. -/
theorem sound_kernel0 (c : Dev nD) (E : Set ℕ) (i : grid0.Coords) (arg1 : Memref sig .tc .vmem S5000x130 .f32) (harg1 : arg1.IsWhole) (arg2 : Memref sig .tc .vmem S130x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole)
    (x0 : Vec F S5000x130 .f32) (x1 : Vec F S130x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__proj_kernel_body i arg1 harg1 arg2 harg2 arg3 harg3 arg4 harg4 arg5 harg5 arg6 harg6 arg7 harg7) K := by
  simp only [cc0__proj_kernel_body_eq_skeleton]; unfold cc0__proj_kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of this pipeline on core `c`: the arrays as the region finds them; after the body at point `t` each input's buffer still at its block and each output's at `out0_W` of the input blocks; nothing else touched, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.Reg1Bits.lean ====
/-
  One kernel region of the program, seen from the arrays it finds in memory: which rows each grid point's
  block holds, what the body leaves in its output buffers (its single whole-buffer store per output, of the
  payload of the loaded blocks), the body's triple, and the pipeline's proof data with its obligation.
-/
import proofs.«163184_j48885317763310_1_alg».proof.Proof.Gen.Kernel.Launch
import proofs.«163184_j48885317763310_1_alg».proof.Proof.Gen.Kernel.Skeleton
import proofs.«163184_j48885317763310_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the kernel `cc1__head_kernel_body` at the contents `V` the region finds in the buffers -/

section Region
variable (V : (c : Dev nD) → (b : Ref sig .tc) → Buf (Elt F) ((c : Thread nD τ).loc b))

/-- Window `w`'s block at grid point `t`: the rows (and columns) of its array that the point's index map selects, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetches it or the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body loads and stores through -/

abbrev rE1 : Rect S5000x128 := Rect.unit (s := S5000x128) ![0, 0] S5000x128.size inb_S5000x128_S5000x128_0_0
abbrev rD1 : Rect S128x128 := Rect.unit (s := S128x128) ![0, 0] S128x128.size inb_S128x128_S128x128_0_0
abbrev rC1 : Rect S1x128 := Rect.unit (s := S1x128) ![0, 0] S1x128.size inb_S1x128_S1x128_0_0
abbrev rG1 : Rect S128x1 := Rect.unit (s := S128x1) ![0, 0] S128x1.size inb_S128x1_S128x1_0_0
abbrev rH1 : Rect S1x1 := Rect.unit (s := S1x1) ![0, 0] S1x1.size inb_S1x1_S1x1_0_0
abbrev rI1 : Rect S5000x1 := Rect.unit (s := S5000x1) ![0, 0] S5000x1.size inb_S5000x1_S5000x1_0_0

/-! ## What the body leaves in each output window's buffer: its one whole-buffer store, of the payload of the loaded input blocks -/

def out1_8 (x0 : Vec F S5000x128 .f32) (x1 : Vec F S5000x128 .f32) (x2 : Vec F S5000x128 .f32) (x3 : Vec F S128x128 .f32) (x4 : Vec F S1x128 .f32) (x5 : Vec F S128x128 .f32) (x6 : Vec F S128x1 .f32) (x7 : Vec F S1x1 .f32) : Vec F S5000x1 .f32 :=
  View.canon [⟨rI1, k1_pay1 (View.ld x0 rE1) (View.ld x1 rE1) (View.ld x3 rD1) (View.ld x5 rD1) (View.ld x4 rC1) (View.ld x2 rE1) (View.ld x6 rG1) (View.ld x7 rH1)⟩]

/-- The one store covers the whole buffer. -/
theorem cover1_8 (p0 : Vec F S5000x1 .f32) (y : S5000x1.Idx) :
    ∃ pc ∈ ([⟨rI1, p0⟩] : List (View.Piece (Elt F) S5000x1 .f32)), y ∈ pc.1.set :=
  View.cover_of_tiled [⟨rI1, p0⟩] S5000x1.size (by rfl) y

/-! ## The body's triple -/

set_option maxHeartbeats 4000000 in
/-- The kernel body run on whole staging buffers, the inputs' holding `xW` and the outputs' anything: it ends with the inputs' unchanged and each output's holding `out1_W` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S5000x1 .f32) (harg9 : arg9.IsWhole)
    (x0 : Vec F S5000x128 .f32) (x1 : Vec F S5000x128 .f32) (x2 : Vec F S5000x128 .f32) (x3 : Vec F S128x128 .f32) (x4 : Vec F S1x128 .f32) (x5 : Vec F S128x128 .f32) (x6 : Vec F S128x1 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__head_kernel_body i arg1 harg1 arg2 harg2 arg3 harg3 arg4 harg4 arg5 harg5 arg6 harg6 arg7 harg7 arg8 harg8 arg9 harg9) K := by
  simp only [cc1__head_kernel_body_eq_skeleton]; unfold cc1__head_kernel_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of this pipeline on core `c`: the arrays as the region finds them; after the body at point `t` each input's buffer still at its block and each output's at `out1_W` of the input blocks; nothing else touched, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the body's triple applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.RunBits.lean ====
/-
  The run of the whole program: host operations, the first kernel region, host operations, the second kernel region,
  host operations. Between two items every unscoped buffer is held at a known contents: the launch memory pushed
  through the host operations, with each region's output arrays replaced by what its write-backs leave (the fold of the
  blocks the body stored at the grid points). The run ends with every buffer at the last of these contents; the
  arguments are among the buffers nothing writes.
-/
import proofs.«163184_j48885317763310_1_alg».proof.Proof.Reg0Bits
import proofs.«163184_j48885317763310_1_alg».proof.Proof.Reg1Bits
import proofs.«163184_j48885317763310_1_alg».proof.Proof.Gen.Kernel.Launch
import proofs.«163184_j48885317763310_1_alg».proof.Proof.Gen.Kernel.Skeleton
import proofs.«163184_j48885317763310_1_alg».proof.Proof.Gen.Kernel.Points
import proofs.«163184_j48885317763310_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at each boundary, and what the regions leave -/

/-- The buffers as region 0 finds them, read at the TensorCore's references. -/
abbrev E1 : (c : Dev nD) → (b : Ref sig .tc) → Buf (Elt F) ((c : Thread nD τ).loc b) := fun c b => Gen.V1 m c b
abbrev E1v : Dev nD → Valuation τ sig (Elt F) := fun c => Gen.V1 m c

/-- After region 0: its arrays at what the pipeline leaves (an input as entered, an output the fold of its write-backs),
    every other buffer as entered. -/
def W2 (c : Dev nD) : Valuation τ sig (Elt F) :=
  Pipeline.withArrays spec0 c (Gen.V1 m c) fun w => (dat0 (E1 m) c).arrAt w cfg0.N

/-- What region 0 leaves, as the family of unknowns the generated valuations are written over (only its two output
    arrays are ever read from it). -/
def outsA : Gen.Outs (F := F) := fun _ r c => W2 m c (Proc.devRef .tc r)

/-- The buffers as region 1 finds them. -/
abbrev E3 : (c : Dev nD) → (b : Ref sig .tc) → Buf (Elt F) ((c : Thread nD τ).loc b) := fun c b => Gen.V3 m (outsA m) c b
abbrev E3v : Dev nD → Valuation τ sig (Elt F) := fun c => Gen.V3 m (outsA m) c

/-- After region 1, in the same way. -/
def W4 (c : Dev nD) : Valuation τ sig (Elt F) :=
  Pipeline.withArrays spec1 c (Gen.V3 m (outsA m) c) fun w => (dat1 (E3 m) c).arrAt w cfg1.N

/-- What the two regions leave: region 1's output read where the valuations ask for it (after item 3), region 0's everywhere else. -/
def outs : Gen.Outs (F := F) := fun J r c => if J = 4 then W4 m c (Proc.devRef .tc r) else W2 m c (Proc.devRef .tc r)

theorem outs_two (r : Ref sig .tc) (c : Dev nD) : outs m 2 r c = W2 m c (Proc.devRef .tc r) := if_neg (by decide)
theorem outs_four (r : Ref sig .tc) (c : Dev nD) : outs m 4 r c = W4 m c (Proc.devRef .tc r) := if_pos rfl

/-- Region 1 is entered from the same contents whichever of the two families is read: only region 0's outputs enter them. -/
theorem V2_outs (c : Dev nD) : Gen.V2 m (outs m) c = Gen.V2 m (outsA m) c := by
  show Function.update (Function.update (Gen.V1 m c) main_v11_0 (outs m 2 main_v11_0 c)) main_v11_1 (outs m 2 main_v11_1 c) = _
  rw [outs_two, outs_two]
  rfl
theorem V3_outs (c : Dev nD) : Gen.V3 m (outs m) c = Gen.V3 m (outsA m) c := by
  show StableHlo.after hostOps1 (Gen.V2 m (outs m) c) = StableHlo.after hostOps1 (Gen.V2 m (outsA m) c)
  rw [V2_outs]

abbrev E2 : (c : Dev nD) → (b : Ref sig .tc) → Buf (Elt F) ((c : Thread nD τ).loc b) := fun c b => Gen.V2 m (outsA m) c b
abbrev E2v : Dev nD → Valuation τ sig (Elt F) := fun c => Gen.V2 m (outsA m) c
abbrev E4 : (c : Dev nD) → (b : Ref sig .tc) → Buf (Elt F) ((c : Thread nD τ).loc b) := fun c b => Gen.V4 m (outs m) c b
abbrev E4v : Dev nD → Valuation τ sig (Elt F) := fun c => Gen.V4 m (outs m) c

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w

/-- The two output arrays of region 0 after it: what its write-backs leave. -/
theorem V2_xf (c : Dev nD) : Gen.V2 m (outsA m) c main_v11_0 = (dat0 (E1 m) c).arrAt 5 cfg0.N := by
  show Function.update (Function.update (Gen.V1 m c) main_v11_0 (outsA m 2 main_v11_0 c)) main_v11_1 (outsA m 2 main_v11_1 c) main_v11_0 = _
  rw [Function.update_of_ne (StableHlo.devRef_ne_of_ne (by decide) : (Proc.devRef .tc main_v11_0 : DevRef τ sig) ≠ Proc.devRef .tc main_v11_1), Function.update_self]
  exact W2_arr m c 5
theorem V2_hin (c : Dev nD) : Gen.V2 m (outsA m) c main_v11_1 = (dat0 (E1 m) c).arrAt 6 cfg0.N := by
  show Function.update (Function.update (Gen.V1 m c) main_v11_0 (outsA m 2 main_v11_0 c)) main_v11_1 (outsA m 2 main_v11_1 c) main_v11_1 = _
  rw [Function.update_self]
  exact W2_arr m c 6
/-- The output array of region 1 after it. -/
theorem V4_col (c : Dev nD) : Gen.V4 m (outs m) c main_v36 = (dat1 (E3 m) c).arrAt 8 cfg1.N := by
  show Function.update (Gen.V3 m (outs m) c) main_v36 (outs m 4 main_v36 c) main_v36 = _
  rw [Function.update_self, outs_four]
  exact W4_arr m c 8

/-- At region 0's exit each of its arrays holds what the pipeline leaves, -/
theorem hF0 (c : Dev nD) : ∀ w : Fin 7, (dat0 (E1 m) c).arrAt w cfg0.N = E2 m c (Pipeline.arrRef spec0 w)
  | 0 => ((dat0 (E1 m) c).arrAt_in 0 rfl _).trans ((A_eq0 (E1 m) c 0).trans (Gen.V2_of m (outsA m) c main_v8 (by decide)).symm)
  | 1 => ((dat0 (E1 m) c).arrAt_in 1 rfl _).trans ((A_eq0 (E1 m) c 1).trans (Gen.V2_of m (outsA m) c main_arg5 (by decide)).symm)
  | 2 => ((dat0 (E1 m) c).arrAt_in 2 rfl _).trans ((A_eq0 (E1 m) c 2).trans (Gen.V2_of m (outsA m) c main_v9 (by decide)).symm)
  | 3 => ((dat0 (E1 m) c).arrAt_in 3 rfl _).trans ((A_eq0 (E1 m) c 3).trans (Gen.V2_of m (outsA m) c main_arg10 (by decide)).symm)
  | 4 => ((dat0 (E1 m) c).arrAt_in 4 rfl _).trans ((A_eq0 (E1 m) c 4).trans (Gen.V2_of m (outsA m) c main_v10 (by decide)).symm)
  | 5 => (V2_xf m c).symm
  | 6 => (V2_hin m c).symm
  | ⟨_ + 7, h⟩ => absurd h (Nat.not_lt.2 (Nat.le_add_left _ _))
/-- and every other buffer what it held at entry. -/
theorem hrest0 (c : Dev nD) : ∀ b, b ∉ Finset.univ.image (Pipeline.arrRef spec0) → E2 m c b = E1 m c b :=
  fun b hb => Gen.V2_of m (outsA m) c b (by
    intro hmem
    rcases List.mem_cons.mp hmem with h | hmem
    · exact hb (Finset.mem_image.mpr ⟨5, Finset.mem_univ _, h.symm⟩)
    rcases List.mem_cons.mp hmem with h | hmem
    · exact hb (Finset.mem_image.mpr ⟨6, Finset.mem_univ _, h.symm⟩)
    exact absurd hmem (List.not_mem_nil))

/-- Nothing but region 1's output column differs between its entry and its exit contents. -/
theorem E4_of_ne (c : Dev nD) (r : Ref sig .tc) (h : r ∉ ([main_v36] : List (Ref sig .tc))) : E4 m c r = E3 m c r :=
  (Gen.V4_of m (outs m) c r h).trans (congrFun (V3_outs m c) (Proc.devRef .tc r))
theorem hF1_0 (c : Dev nD) : (dat1 (E3 m) c).arrAt 0 cfg1.N = E4 m c main_v33 :=
  ((dat1 (E3 m) c).arrAt_in 0 rfl cfg1.N).trans ((A_eq1 (E3 m) c 0).trans (E4_of_ne m c main_v33 (by decide)).symm)
theorem hF1_1 (c : Dev nD) : (dat1 (E3 m) c).arrAt 1 cfg1.N = E4 m c main_v11_0 :=
  ((dat1 (E3 m) c).arrAt_in 1 rfl cfg1.N).trans ((A_eq1 (E3 m) c 1).trans (E4_of_ne m c main_v11_0 (by decide)).symm)
theorem hF1_2 (c : Dev nD) : (dat1 (E3 m) c).arrAt 2 cfg1.N = E4 m c main_v11_1 :=
  ((dat1 (E3 m) c).arrAt_in 2 rfl cfg1.N).trans ((A_eq1 (E3 m) c 2).trans (E4_of_ne m c main_v11_1 (by decide)).symm)
theorem hF1_3 (c : Dev nD) : (dat1 (E3 m) c).arrAt 3 cfg1.N = E4 m c main_arg7 :=
  ((dat1 (E3 m) c).arrAt_in 3 rfl cfg1.N).trans ((A_eq1 (E3 m) c 3).trans (E4_of_ne m c main_arg7 (by decide)).symm)
theorem hF1_4 (c : Dev nD) : (dat1 (E3 m) c).arrAt 4 cfg1.N = E4 m c main_v34 :=
  ((dat1 (E3 m) c).arrAt_in 4 rfl cfg1.N).trans ((A_eq1 (E3 m) c 4).trans (E4_of_ne m c main_v34 (by decide)).symm)
theorem hF1_5 (c : Dev nD) : (dat1 (E3 m) c).arrAt 5 cfg1.N = E4 m c main_arg9 :=
  ((dat1 (E3 m) c).arrAt_in 5 rfl cfg1.N).trans ((A_eq1 (E3 m) c 5).trans (E4_of_ne m c main_arg9 (by decide)).symm)
theorem hF1_6 (c : Dev nD) : (dat1 (E3 m) c).arrAt 6 cfg1.N = E4 m c main_arg12 :=
  ((dat1 (E3 m) c).arrAt_in 6 rfl cfg1.N).trans ((A_eq1 (E3 m) c 6).trans (E4_of_ne m c main_arg12 (by decide)).symm)
theorem hF1_7 (c : Dev nD) : (dat1 (E3 m) c).arrAt 7 cfg1.N = E4 m c main_v35 :=
  ((dat1 (E3 m) c).arrAt_in 7 rfl cfg1.N).trans ((A_eq1 (E3 m) c 7).trans (E4_of_ne m c main_v35 (by decide)).symm)
theorem hF1 (c : Dev nD) : ∀ w : Fin 9, (dat1 (E3 m) c).arrAt w cfg1.N = E4 m c (Pipeline.arrRef spec1 w)
  | 0 => hF1_0 m c
  | 1 => hF1_1 m c
  | 2 => hF1_2 m c
  | 3 => hF1_3 m c
  | 4 => hF1_4 m c
  | 5 => hF1_5 m c
  | 6 => hF1_6 m c
  | 7 => hF1_7 m c
  | 8 => (V4_col m c).symm
  | ⟨_ + 9, h⟩ => absurd h (Nat.not_lt.2 (Nat.le_add_left _ _))
theorem hrest1 (c : Dev nD) : ∀ b, b ∉ Finset.univ.image (Pipeline.arrRef spec1) → E4 m c b = E3 m c b :=
  fun b hb => E4_of_ne m c b (by
    intro hmem
    rcases List.mem_cons.mp hmem with h | hmem
    · exact hb (Finset.mem_image.mpr ⟨8, Finset.mem_univ _, h.symm⟩)
    exact absurd hmem (List.not_mem_nil))

/-! ## The proof data family and the state that rides along -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 as a segment of the run: entered with every unscoped buffer at the contents before it, left with them at the
    contents after it. Its arrays are split out of the unscoped buffers and put back at what the write-backs leave; the
    generator register goes into the body's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (E1v m c) ∗ R c)
  post c := iprop(StableHlo.held (c : Thread nD τ) (Pipeline.ucRefs τ sig) (E2v m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at the contents before it, left with them at the
    contents after it. Its arrays are split out of the unscoped buffers and put back at what the write-backs leave; the
    generator register goes into the body's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (E3v m c) ∗ R c)
  post c := iprop(StableHlo.held (c : Thread nD τ) (Pipeline.ucRefs τ sig) (E4v m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Region 0 is left at the contents the next host stretch starts from, -/
theorem hpost0 (c : Dev nD) : (reg0 (F := F) m).post c
    ⊢ iprop(StableHlo.held (c : Thread nD τ) (Pipeline.ucRefs τ sig) (Gen.V2 m (outs m) c) ∗ R c) := by
  show iprop(StableHlo.held (c : Thread nD τ) (Pipeline.ucRefs τ sig) (Gen.V2 m (outsA m) c) ∗ R c) ⊢ _
  rw [V2_outs]
/-- and region 1 is entered from the contents that stretch ends with. -/
theorem hpre1 (c : Dev nD) : iprop(StableHlo.held (c : Thread nD τ) (Pipeline.ucRefs τ sig) (Gen.V3 m (outs m) c) ∗ R c)
    ⊢ (reg1 (F := F) m).pre c := by
  show _ ⊢ iprop(StableHlo.held (c : Thread nD τ) (Pipeline.ucRefs τ sig) (Gen.V3 m (outsA m) c) ∗ R c)
  rw [V3_outs]

/-- The launch makes the riding state on every core. -/
theorem launch_rest :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE RUN. From any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m))
    (fun c Q => by
      rewrite [main_chain c, Seg.run_eq_chain,
        show (Gen.segs m (outs m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V5 m (outs m) c))
    (hch := fun c => ⟨.rfl, .rfl, hpost0 m c, hpre1 m c, .rfl,
      sep_mono .rfl (by iintro ⟨-, HO⟩; iexact HO)⟩)
    (hinit := ?_) (QY := fun c s => ∀ b ∈ Pipeline.ucRefs τ sig, s.mem (((c : Thread nD τ)).1, b) = Gen.V5 m (outs m) c b)
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => R (F := F) c)]
    isplitl [Hh]; · iexact Hh
    iexact HE
  · -- the end: every buffer read off the last contents
    unfold StableHlo.held
    iintro ⟨Hh, HSI⟩
    imodintro
    iapply (pointsTo_read_all (Pipeline.ucRefs τ sig) (fun b => (((c : Thread nD τ)).1, b)) (Gen.V5 m (outs m) c) s')
    isplitl [Hh] <;> iassumption

/-- An unscoped TensorCore reference is among those the run ends holding. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends holding its launch contents (no host operation and no region writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c),
     (h c _ (mem_uc main_arg7 (by decide))).trans (Gen.V5_main_arg7 m (outs m) c),
     (h c _ (mem_uc main_arg8 (by decide))).trans (Gen.V5_main_arg8 m (outs m) c),
     (h c _ (mem_uc main_arg9 (by decide))).trans (Gen.V5_main_arg9 m (outs m) c),
     (h c _ (mem_uc main_arg10 (by decide))).trans (Gen.V5_main_arg10 m (outs m) c),
     (h c _ (mem_uc main_arg11 (by decide))).trans (Gen.V5_main_arg11 m (outs m) c),
     (h c _ (mem_uc main_arg12 (by decide))).trans (Gen.V5_main_arg12 m (outs m) c),
     (h c _ (mem_uc main_arg13 (by decide))).trans (Gen.V5_main_arg13 m (outs m) c),
     (h c _ (mem_uc main_arg14 (by decide))).trans (Gen.V5_main_arg14 m (outs m) c)⟩) (run_all m ρ)

end Cert.Kernel.Hand

end
-- ==== Proof.Reg0Ideal.lean ====
/-
  One kernel region of the program, seen from the arrays it finds in memory: which rows each grid point's
  block holds, what the body leaves in its output buffers (its single whole-buffer store per output, of the
  payload of the loaded blocks), the body's triple, and the pipeline's proof data with its obligation.
-/
import proofs.«163184_j48885317763310_1_alg».proof.Proof.Gen.KernelIdeal.Launch
import proofs.«163184_j48885317763310_1_alg».proof.Proof.Gen.KernelIdeal.Skeleton
import proofs.«163184_j48885317763310_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the kernel `cc0__proj_kernel_body` at the contents `V` the region finds in the buffers -/

section Region
variable (V : (c : Dev nD) → (b : Ref sig .tc) → Buf (Elt F) ((c : Thread nD τ).loc b))

/-- Window `w`'s block at grid point `t`: the rows (and columns) of its array that the point's index map selects, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the point fetches it or the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/

abbrev rA0 : Rect S5000x130 := Rect.unit (s := S5000x130) ![0, 0] S5000x130.size inb_S5000x130_S5000x130_0_0
abbrev rB0 : Rect S130x128 := Rect.unit (s := S130x128) ![0, 0] S130x128.size inb_S130x128_S130x128_0_0
abbrev rC0 : Rect S1x128 := Rect.unit (s := S1x128) ![0, 0] S1x128.size inb_S1x128_S1x128_0_0
abbrev rD0 : Rect S128x128 := Rect.unit (s := S128x128) ![0, 0] S128x128.size inb_S128x128_S128x128_0_0
abbrev rE0 : Rect S5000x128 := Rect.unit (s := S5000x128) ![0, 0] S5000x128.size inb_S5000x128_S5000x128_0_0

/-! ## What the body leaves in each output window's buffer: its one whole-buffer store, of the payload of the loaded input blocks -/

def out0_5 (x0 : Vec F S5000x130 .f32) (x1 : Vec F S130x128 .f32) (x2 : Vec F S1x128 .f32) : Vec F S5000x128 .f32 :=
  View.canon [⟨rE0, k0_pay1 (View.ld x0 rA0) (View.ld x1 rB0) (View.ld x2 rC0)⟩]

/-- The one store covers the whole buffer. -/
theorem cover0_5 (p0 : Vec F S5000x128 .f32) (y : S5000x128.Idx) :
    ∃ pc ∈ ([⟨rE0, p0⟩] : List (View.Piece (Elt F) S5000x128 .f32)), y ∈ pc.1.set :=
  View.cover_of_tiled [⟨rE0, p0⟩] S5000x128.size (by rfl) y

def out0_6 (x0 : Vec F S5000x130 .f32) (x1 : Vec F S130x128 .f32) (x2 : Vec F S1x128 .f32) (x3 : Vec F S128x128 .f32) (x4 : Vec F S1x128 .f32) : Vec F S5000x128 .f32 :=
  View.canon [⟨rE0, k0_pay2 (View.ld x0 rA0) (View.ld x1 rB0) (View.ld x2 rC0) (View.ld x3 rD0) (View.ld x4 rC0)⟩]

/-- The one store covers the whole buffer. -/
theorem cover0_6 (p0 : Vec F S5000x128 .f32) (y : S5000x128.Idx) :
    ∃ pc ∈ ([⟨rE0, p0⟩] : List (View.Piece (Elt F) S5000x128 .f32)), y ∈ pc.1.set :=
  View.cover_of_tiled [⟨rE0, p0⟩] S5000x128.size (by rfl) y

/-! ## The body's triple -/

set_option maxHeartbeats 4000000 in
/-- The kernel body run on whole staging buffers, the inputs' holding `xW` and the outputs' anything: it ends with the inputs' unchanged and each output's holding `out0_W` of the inputs'. -/
theorem sound_kernel0 (c : Dev nD) (E : Set ℕ) (i : grid0.Coords) (arg1 : Memref sig .tc .vmem S5000x130 .f32) (harg1 : arg1.IsWhole) (arg2 : Memref sig .tc .vmem S130x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole)
    (x0 : Vec F S5000x130 .f32) (x1 : Vec F S130x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__proj_kernel_body i arg1 harg1 arg2 harg2 arg3 harg3 arg4 harg4 arg5 harg5 arg6 harg6 arg7 harg7) K := by
  simp only [cc0__proj_kernel_body_eq_skeleton]; unfold cc0__proj_kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of this pipeline on core `c`: the arrays as the region finds them; after the body at point `t` each input's buffer still at its block and each output's at `out0_W` of the input blocks; nothing else touched, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.Reg1Ideal.lean ====
/-
  One kernel region of the program, seen from the arrays it finds in memory: which rows each grid point's
  block holds, what the body leaves in its output buffers (its single whole-buffer store per output, of the
  payload of the loaded blocks), the body's triple, and the pipeline's proof data with its obligation.
-/
import proofs.«163184_j48885317763310_1_alg».proof.Proof.Gen.KernelIdeal.Launch
import proofs.«163184_j48885317763310_1_alg».proof.Proof.Gen.KernelIdeal.Skeleton
import proofs.«163184_j48885317763310_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the kernel `cc1__head_kernel_body` at the contents `V` the region finds in the buffers -/

section Region
variable (V : (c : Dev nD) → (b : Ref sig .tc) → Buf (Elt F) ((c : Thread nD τ).loc b))

/-- Window `w`'s block at grid point `t`: the rows (and columns) of its array that the point's index map selects, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetches it or the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body loads and stores through -/

abbrev rE1 : Rect S5000x128 := Rect.unit (s := S5000x128) ![0, 0] S5000x128.size inb_S5000x128_S5000x128_0_0
abbrev rD1 : Rect S128x128 := Rect.unit (s := S128x128) ![0, 0] S128x128.size inb_S128x128_S128x128_0_0
abbrev rC1 : Rect S1x128 := Rect.unit (s := S1x128) ![0, 0] S1x128.size inb_S1x128_S1x128_0_0
abbrev rG1 : Rect S128x1 := Rect.unit (s := S128x1) ![0, 0] S128x1.size inb_S128x1_S128x1_0_0
abbrev rH1 : Rect S1x1 := Rect.unit (s := S1x1) ![0, 0] S1x1.size inb_S1x1_S1x1_0_0
abbrev rI1 : Rect S5000x1 := Rect.unit (s := S5000x1) ![0, 0] S5000x1.size inb_S5000x1_S5000x1_0_0

/-! ## What the body leaves in each output window's buffer: its one whole-buffer store, of the payload of the loaded input blocks -/

def out1_8 (x0 : Vec F S5000x128 .f32) (x1 : Vec F S5000x128 .f32) (x2 : Vec F S5000x128 .f32) (x3 : Vec F S128x128 .f32) (x4 : Vec F S1x128 .f32) (x5 : Vec F S128x128 .f32) (x6 : Vec F S128x1 .f32) (x7 : Vec F S1x1 .f32) : Vec F S5000x1 .f32 :=
  View.canon [⟨rI1, k1_pay1 (View.ld x0 rE1) (View.ld x1 rE1) (View.ld x3 rD1) (View.ld x5 rD1) (View.ld x4 rC1) (View.ld x2 rE1) (View.ld x6 rG1) (View.ld x7 rH1)⟩]

/-- The one store covers the whole buffer. -/
theorem cover1_8 (p0 : Vec F S5000x1 .f32) (y : S5000x1.Idx) :
    ∃ pc ∈ ([⟨rI1, p0⟩] : List (View.Piece (Elt F) S5000x1 .f32)), y ∈ pc.1.set :=
  View.cover_of_tiled [⟨rI1, p0⟩] S5000x1.size (by rfl) y

/-! ## The body's triple -/

set_option maxHeartbeats 4000000 in
/-- The kernel body run on whole staging buffers, the inputs' holding `xW` and the outputs' anything: it ends with the inputs' unchanged and each output's holding `out1_W` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S5000x1 .f32) (harg9 : arg9.IsWhole)
    (x0 : Vec F S5000x128 .f32) (x1 : Vec F S5000x128 .f32) (x2 : Vec F S5000x128 .f32) (x3 : Vec F S128x128 .f32) (x4 : Vec F S1x128 .f32) (x5 : Vec F S128x128 .f32) (x6 : Vec F S128x1 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__head_kernel_body i arg1 harg1 arg2 harg2 arg3 harg3 arg4 harg4 arg5 harg5 arg6 harg6 arg7 harg7 arg8 harg8 arg9 harg9) K := by
  simp only [cc1__head_kernel_body_eq_skeleton]; unfold cc1__head_kernel_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of this pipeline on core `c`: the arrays as the region finds them; after the body at point `t` each input's buffer still at its block and each output's at `out1_W` of the input blocks; nothing else touched, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the body's triple applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.RunIdeal.lean ====
/-
  The run of the whole program: host operations, the first kernel region, host operations, the second kernel region,
  host operations. Between two items every unscoped buffer is held at a known contents: the launch memory pushed
  through the host operations, with each region's output arrays replaced by what its write-backs leave (the fold of the
  blocks the body stored at the grid points). The run ends with every buffer at the last of these contents; the
  arguments are among the buffers nothing writes.
-/
import proofs.«163184_j48885317763310_1_alg».proof.Proof.Reg0Ideal
import proofs.«163184_j48885317763310_1_alg».proof.Proof.Reg1Ideal
import proofs.«163184_j48885317763310_1_alg».proof.Proof.Gen.KernelIdeal.Launch
import proofs.«163184_j48885317763310_1_alg».proof.Proof.Gen.KernelIdeal.Skeleton
import proofs.«163184_j48885317763310_1_alg».proof.Proof.Gen.KernelIdeal.Points
import proofs.«163184_j48885317763310_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at each boundary, and what the regions leave -/

/-- The buffers as region 0 finds them, read at the TensorCore's references. -/
abbrev E1 : (c : Dev nD) → (b : Ref sig .tc) → Buf (Elt F) ((c : Thread nD τ).loc b) := fun c b => Gen.V1 m c b
abbrev E1v : Dev nD → Valuation τ sig (Elt F) := fun c => Gen.V1 m c

/-- After region 0: its arrays at what the pipeline leaves (an input as entered, an output the fold of its write-backs),
    every other buffer as entered. -/
def W2 (c : Dev nD) : Valuation τ sig (Elt F) :=
  Pipeline.withArrays spec0 c (Gen.V1 m c) fun w => (dat0 (E1 m) c).arrAt w cfg0.N

/-- What region 0 leaves, as the family of unknowns the generated valuations are written over (only its two output
    arrays are ever read from it). -/
def outsA : Gen.Outs (F := F) := fun _ r c => W2 m c (Proc.devRef .tc r)

/-- The buffers as region 1 finds them. -/
abbrev E3 : (c : Dev nD) → (b : Ref sig .tc) → Buf (Elt F) ((c : Thread nD τ).loc b) := fun c b => Gen.V3 m (outsA m) c b
abbrev E3v : Dev nD → Valuation τ sig (Elt F) := fun c => Gen.V3 m (outsA m) c

/-- After region 1, in the same way. -/
def W4 (c : Dev nD) : Valuation τ sig (Elt F) :=
  Pipeline.withArrays spec1 c (Gen.V3 m (outsA m) c) fun w => (dat1 (E3 m) c).arrAt w cfg1.N

/-- What the two regions leave: region 1's output read where the valuations ask for it (after item 3), region 0's everywhere else. -/
def outs : Gen.Outs (F := F) := fun J r c => if J = 4 then W4 m c (Proc.devRef .tc r) else W2 m c (Proc.devRef .tc r)

theorem outs_two (r : Ref sig .tc) (c : Dev nD) : outs m 2 r c = W2 m c (Proc.devRef .tc r) := if_neg (by decide)
theorem outs_four (r : Ref sig .tc) (c : Dev nD) : outs m 4 r c = W4 m c (Proc.devRef .tc r) := if_pos rfl

/-- Region 1 is entered from the same contents whichever of the two families is read: only region 0's outputs enter them. -/
theorem V2_outs (c : Dev nD) : Gen.V2 m (outs m) c = Gen.V2 m (outsA m) c := by
  show Function.update (Function.update (Gen.V1 m c) main_v11_0 (outs m 2 main_v11_0 c)) main_v11_1 (outs m 2 main_v11_1 c) = _
  rw [outs_two, outs_two]
  rfl
theorem V3_outs (c : Dev nD) : Gen.V3 m (outs m) c = Gen.V3 m (outsA m) c := by
  show StableHlo.after hostOps1 (Gen.V2 m (outs m) c) = StableHlo.after hostOps1 (Gen.V2 m (outsA m) c)
  rw [V2_outs]

abbrev E2 : (c : Dev nD) → (b : Ref sig .tc) → Buf (Elt F) ((c : Thread nD τ).loc b) := fun c b => Gen.V2 m (outsA m) c b
abbrev E2v : Dev nD → Valuation τ sig (Elt F) := fun c => Gen.V2 m (outsA m) c
abbrev E4 : (c : Dev nD) → (b : Ref sig .tc) → Buf (Elt F) ((c : Thread nD τ).loc b) := fun c b => Gen.V4 m (outs m) c b
abbrev E4v : Dev nD → Valuation τ sig (Elt F) := fun c => Gen.V4 m (outs m) c

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w

/-- The two output arrays of region 0 after it: what its write-backs leave. -/
theorem V2_xf (c : Dev nD) : Gen.V2 m (outsA m) c main_v11_0 = (dat0 (E1 m) c).arrAt 5 cfg0.N := by
  show Function.update (Function.update (Gen.V1 m c) main_v11_0 (outsA m 2 main_v11_0 c)) main_v11_1 (outsA m 2 main_v11_1 c) main_v11_0 = _
  rw [Function.update_of_ne (StableHlo.devRef_ne_of_ne (by decide) : (Proc.devRef .tc main_v11_0 : DevRef τ sig) ≠ Proc.devRef .tc main_v11_1), Function.update_self]
  exact W2_arr m c 5
theorem V2_hin (c : Dev nD) : Gen.V2 m (outsA m) c main_v11_1 = (dat0 (E1 m) c).arrAt 6 cfg0.N := by
  show Function.update (Function.update (Gen.V1 m c) main_v11_0 (outsA m 2 main_v11_0 c)) main_v11_1 (outsA m 2 main_v11_1 c) main_v11_1 = _
  rw [Function.update_self]
  exact W2_arr m c 6
/-- The output array of region 1 after it. -/
theorem V4_col (c : Dev nD) : Gen.V4 m (outs m) c main_v36 = (dat1 (E3 m) c).arrAt 8 cfg1.N := by
  show Function.update (Gen.V3 m (outs m) c) main_v36 (outs m 4 main_v36 c) main_v36 = _
  rw [Function.update_self, outs_four]
  exact W4_arr m c 8

/-- At region 0's exit each of its arrays holds what the pipeline leaves, -/
theorem hF0 (c : Dev nD) : ∀ w : Fin 7, (dat0 (E1 m) c).arrAt w cfg0.N = E2 m c (Pipeline.arrRef spec0 w)
  | 0 => ((dat0 (E1 m) c).arrAt_in 0 rfl _).trans ((A_eq0 (E1 m) c 0).trans (Gen.V2_of m (outsA m) c main_v8 (by decide)).symm)
  | 1 => ((dat0 (E1 m) c).arrAt_in 1 rfl _).trans ((A_eq0 (E1 m) c 1).trans (Gen.V2_of m (outsA m) c main_arg5 (by decide)).symm)
  | 2 => ((dat0 (E1 m) c).arrAt_in 2 rfl _).trans ((A_eq0 (E1 m) c 2).trans (Gen.V2_of m (outsA m) c main_v9 (by decide)).symm)
  | 3 => ((dat0 (E1 m) c).arrAt_in 3 rfl _).trans ((A_eq0 (E1 m) c 3).trans (Gen.V2_of m (outsA m) c main_arg10 (by decide)).symm)
  | 4 => ((dat0 (E1 m) c).arrAt_in 4 rfl _).trans ((A_eq0 (E1 m) c 4).trans (Gen.V2_of m (outsA m) c main_v10 (by decide)).symm)
  | 5 => (V2_xf m c).symm
  | 6 => (V2_hin m c).symm
  | ⟨_ + 7, h⟩ => absurd h (Nat.not_lt.2 (Nat.le_add_left _ _))
/-- and every other buffer what it held at entry. -/
theorem hrest0 (c : Dev nD) : ∀ b, b ∉ Finset.univ.image (Pipeline.arrRef spec0) → E2 m c b = E1 m c b :=
  fun b hb => Gen.V2_of m (outsA m) c b (by
    intro hmem
    rcases List.mem_cons.mp hmem with h | hmem
    · exact hb (Finset.mem_image.mpr ⟨5, Finset.mem_univ _, h.symm⟩)
    rcases List.mem_cons.mp hmem with h | hmem
    · exact hb (Finset.mem_image.mpr ⟨6, Finset.mem_univ _, h.symm⟩)
    exact absurd hmem (List.not_mem_nil))

/-- Nothing but region 1's output column differs between its entry and its exit contents. -/
theorem E4_of_ne (c : Dev nD) (r : Ref sig .tc) (h : r ∉ ([main_v36] : List (Ref sig .tc))) : E4 m c r = E3 m c r :=
  (Gen.V4_of m (outs m) c r h).trans (congrFun (V3_outs m c) (Proc.devRef .tc r))
theorem hF1_0 (c : Dev nD) : (dat1 (E3 m) c).arrAt 0 cfg1.N = E4 m c main_v33 :=
  ((dat1 (E3 m) c).arrAt_in 0 rfl cfg1.N).trans ((A_eq1 (E3 m) c 0).trans (E4_of_ne m c main_v33 (by decide)).symm)
theorem hF1_1 (c : Dev nD) : (dat1 (E3 m) c).arrAt 1 cfg1.N = E4 m c main_v11_0 :=
  ((dat1 (E3 m) c).arrAt_in 1 rfl cfg1.N).trans ((A_eq1 (E3 m) c 1).trans (E4_of_ne m c main_v11_0 (by decide)).symm)
theorem hF1_2 (c : Dev nD) : (dat1 (E3 m) c).arrAt 2 cfg1.N = E4 m c main_v11_1 :=
  ((dat1 (E3 m) c).arrAt_in 2 rfl cfg1.N).trans ((A_eq1 (E3 m) c 2).trans (E4_of_ne m c main_v11_1 (by decide)).symm)
theorem hF1_3 (c : Dev nD) : (dat1 (E3 m) c).arrAt 3 cfg1.N = E4 m c main_arg7 :=
  ((dat1 (E3 m) c).arrAt_in 3 rfl cfg1.N).trans ((A_eq1 (E3 m) c 3).trans (E4_of_ne m c main_arg7 (by decide)).symm)
theorem hF1_4 (c : Dev nD) : (dat1 (E3 m) c).arrAt 4 cfg1.N = E4 m c main_v34 :=
  ((dat1 (E3 m) c).arrAt_in 4 rfl cfg1.N).trans ((A_eq1 (E3 m) c 4).trans (E4_of_ne m c main_v34 (by decide)).symm)
theorem hF1_5 (c : Dev nD) : (dat1 (E3 m) c).arrAt 5 cfg1.N = E4 m c main_arg9 :=
  ((dat1 (E3 m) c).arrAt_in 5 rfl cfg1.N).trans ((A_eq1 (E3 m) c 5).trans (E4_of_ne m c main_arg9 (by decide)).symm)
theorem hF1_6 (c : Dev nD) : (dat1 (E3 m) c).arrAt 6 cfg1.N = E4 m c main_arg12 :=
  ((dat1 (E3 m) c).arrAt_in 6 rfl cfg1.N).trans ((A_eq1 (E3 m) c 6).trans (E4_of_ne m c main_arg12 (by decide)).symm)
theorem hF1_7 (c : Dev nD) : (dat1 (E3 m) c).arrAt 7 cfg1.N = E4 m c main_v35 :=
  ((dat1 (E3 m) c).arrAt_in 7 rfl cfg1.N).trans ((A_eq1 (E3 m) c 7).trans (E4_of_ne m c main_v35 (by decide)).symm)
theorem hF1 (c : Dev nD) : ∀ w : Fin 9, (dat1 (E3 m) c).arrAt w cfg1.N = E4 m c (Pipeline.arrRef spec1 w)
  | 0 => hF1_0 m c
  | 1 => hF1_1 m c
  | 2 => hF1_2 m c
  | 3 => hF1_3 m c
  | 4 => hF1_4 m c
  | 5 => hF1_5 m c
  | 6 => hF1_6 m c
  | 7 => hF1_7 m c
  | 8 => (V4_col m c).symm
  | ⟨_ + 9, h⟩ => absurd h (Nat.not_lt.2 (Nat.le_add_left _ _))
theorem hrest1 (c : Dev nD) : ∀ b, b ∉ Finset.univ.image (Pipeline.arrRef spec1) → E4 m c b = E3 m c b :=
  fun b hb => E4_of_ne m c b (by
    intro hmem
    rcases List.mem_cons.mp hmem with h | hmem
    · exact hb (Finset.mem_image.mpr ⟨8, Finset.mem_univ _, h.symm⟩)
    exact absurd hmem (List.not_mem_nil))

/-! ## The proof data family and the state that rides along -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 as a segment of the run: entered with every unscoped buffer at the contents before it, left with them at the
    contents after it. Its arrays are split out of the unscoped buffers and put back at what the write-backs leave; the
    generator register goes into the body's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (E1v m c) ∗ R c)
  post c := iprop(StableHlo.held (c : Thread nD τ) (Pipeline.ucRefs τ sig) (E2v m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at the contents before it, left with them at the
    contents after it. Its arrays are split out of the unscoped buffers and put back at what the write-backs leave; the
    generator register goes into the body's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (E3v m c) ∗ R c)
  post c := iprop(StableHlo.held (c : Thread nD τ) (Pipeline.ucRefs τ sig) (E4v m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Region 0 is left at the contents the next host stretch starts from, -/
theorem hpost0 (c : Dev nD) : (reg0 (F := F) m).post c
    ⊢ iprop(StableHlo.held (c : Thread nD τ) (Pipeline.ucRefs τ sig) (Gen.V2 m (outs m) c) ∗ R c) := by
  show iprop(StableHlo.held (c : Thread nD τ) (Pipeline.ucRefs τ sig) (Gen.V2 m (outsA m) c) ∗ R c) ⊢ _
  rw [V2_outs]
/-- and region 1 is entered from the contents that stretch ends with. -/
theorem hpre1 (c : Dev nD) : iprop(StableHlo.held (c : Thread nD τ) (Pipeline.ucRefs τ sig) (Gen.V3 m (outs m) c) ∗ R c)
    ⊢ (reg1 (F := F) m).pre c := by
  show _ ⊢ iprop(StableHlo.held (c : Thread nD τ) (Pipeline.ucRefs τ sig) (Gen.V3 m (outsA m) c) ∗ R c)
  rw [V3_outs]

/-- The launch makes the riding state on every core. -/
theorem launch_rest :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE RUN. From any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m))
    (fun c Q => by
      rewrite [main_chain c, Seg.run_eq_chain,
        show (Gen.segs m (outs m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V5 m (outs m) c))
    (hch := fun c => ⟨.rfl, .rfl, hpost0 m c, hpre1 m c, .rfl,
      sep_mono .rfl (by iintro ⟨-, HO⟩; iexact HO)⟩)
    (hinit := ?_) (QY := fun c s => ∀ b ∈ Pipeline.ucRefs τ sig, s.mem (((c : Thread nD τ)).1, b) = Gen.V5 m (outs m) c b)
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => R (F := F) c)]
    isplitl [Hh]; · iexact Hh
    iexact HE
  · -- the end: every buffer read off the last contents
    unfold StableHlo.held
    iintro ⟨Hh, HSI⟩
    imodintro
    iapply (pointsTo_read_all (Pipeline.ucRefs τ sig) (fun b => (((c : Thread nD τ)).1, b)) (Gen.V5 m (outs m) c) s')
    isplitl [Hh] <;> iassumption

/-- An unscoped TensorCore reference is among those the run ends holding. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends holding its launch contents (no host operation and no region writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c),
     (h c _ (mem_uc main_arg7 (by decide))).trans (Gen.V5_main_arg7 m (outs m) c),
     (h c _ (mem_uc main_arg8 (by decide))).trans (Gen.V5_main_arg8 m (outs m) c),
     (h c _ (mem_uc main_arg9 (by decide))).trans (Gen.V5_main_arg9 m (outs m) c),
     (h c _ (mem_uc main_arg10 (by decide))).trans (Gen.V5_main_arg10 m (outs m) c),
     (h c _ (mem_uc main_arg11 (by decide))).trans (Gen.V5_main_arg11 m (outs m) c),
     (h c _ (mem_uc main_arg12 (by decide))).trans (Gen.V5_main_arg12 m (outs m) c),
     (h c _ (mem_uc main_arg13 (by decide))).trans (Gen.V5_main_arg13 m (outs m) c),
     (h c _ (mem_uc main_arg14 (by decide))).trans (Gen.V5_main_arg14 m (outs m) c)⟩) (run_all m ρ)

end Cert.KernelIdeal.Hand

end
-- ==== Proof.Blocks.lean ====
/-
  From blocks to arrays. Each kernel region writes its output arrays block by block: grid point t writes rows
  5000·t … 5000·t + 4999. Whenever the body's payload at row p of point t's blocks is a function G of the whole
  arrays at row 5000·t + p, the array the region leaves IS G: every row lies in exactly the block of point
  ⌊row / 5000⌋, and every point writes its block back.  Also here: which rows of the input arrays a point's
  input blocks hold (the row-blocked inputs move with the point, the weights and biases are whole at every point).
-/
import proofs.«163184_j48885317763310_1_alg».proof.Proof.Reg0Ideal
import proofs.«163184_j48885317763310_1_alg».proof.Proof.Reg1Ideal
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl

theorem tlt0 (t : Fin cfg0.N) : t.val < 20 := lt_of_lt_of_eq t.isLt N_0
theorem tlt1 (t : Fin cfg1.N) : t.val < 20 := lt_of_lt_of_eq t.isLt N_1

/-- Row p of grid point t's block is row 5000·t + p of the array. -/
def row0 (t : Fin cfg0.N) (p : Fin 5000) : Fin 100000 := ⟨t.val * 5000 + p.val, by have := tlt0 t; have := p.isLt; omega⟩
def row1 (t : Fin cfg1.N) (p : Fin 5000) : Fin 100000 := ⟨t.val * 5000 + p.val, by have := tlt1 t; have := p.isLt; omega⟩

/-- The printed index maps over the grid: a row-blocked window's block index is (t, 0); a weight's or bias's is (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

section
variable (V : (c : Dev nD) → (b : Ref sig .tc) → Buf (Elt F) ((c : Thread nD τ).loc b)) (c : Dev nD)

/-! ## Region 0: the input blocks -/

/-- The row-blocked input of region 0: point t's block holds rows 5000·t … of the concatenated input array. -/
theorem iblk0_0_apply (t : Fin cfg0.N) (p : Fin 5000) (k : Fin 130) :
    iblk0 V c 0 t (ix2 p k) = V c main_v8 (ix2 (row0 t p) k) := by
  obtain ⟨e0, e1, -⟩ := idx_facts0 t
  show V c main_v8 (((cfg0.win 0).blk t).view.emb (ix2 p k)) = V c main_v8 (ix2 (row0 t p) k)
  refine congrArg (V c main_v8) (funext fun a => Fin.ext ?_)
  match a with
  | ⟨0, _⟩ => show win0_0.index t (0 : Fin 2) * 5000 + 1 * p.val = t.val * 5000 + p.val; omega
  | ⟨1, _⟩ => show win0_0.index t (1 : Fin 2) * 130 + 1 * k.val = k.val; omega

/-- A whole-array window: at every point its block is the array. -/
theorem iblk0_1_apply (t : Fin cfg0.N) (k : Fin 130) (q : Fin 128) :
    iblk0 V c 1 t (ix2 k q) = V c main_arg5 (ix2 k q) := by
  obtain ⟨-, -, e0, e1, -⟩ := idx_facts0 t
  show V c main_arg5 (((cfg0.win 1).blk t).view.emb (ix2 k q)) = V c main_arg5 (ix2 k q)
  refine congrArg (V c main_arg5) (funext fun a => Fin.ext ?_)
  match a with
  | ⟨0, _⟩ => show win0_1.index t (0 : Fin 2) * 130 + 1 * k.val = k.val; omega
  | ⟨1, _⟩ => show win0_1.index t (1 : Fin 2) * 128 + 1 * q.val = q.val; omega

theorem iblk0_2_apply (t : Fin cfg0.N) (q : Fin 128) :
    iblk0 V c 2 t (ix2 (0 : Fin 1) q) = V c main_v9 (ix2 (0 : Fin 1) q) := by
  obtain ⟨-, -, -, -, e0, e1, -⟩ := idx_facts0 t
  show V c main_v9 (((cfg0.win 2).blk t).view.emb (ix2 (0 : Fin 1) q)) = V c main_v9 (ix2 (0 : Fin 1) q)
  refine congrArg (V c main_v9) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

theorem iblk0_3_apply (t : Fin cfg0.N) (k : Fin 128) (q : Fin 128) :
    iblk0 V c 3 t (ix2 k q) = V c main_arg10 (ix2 k q) := by
  obtain ⟨-, -, -, -, -, -, e0, e1, -⟩ := idx_facts0 t
  show V c main_arg10 (((cfg0.win 3).blk t).view.emb (ix2 k q)) = V c main_arg10 (ix2 k q)
  refine congrArg (V c main_arg10) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem iblk0_4_apply (t : Fin cfg0.N) (q : Fin 128) :
    iblk0 V c 4 t (ix2 (0 : Fin 1) q) = V c main_v10 (ix2 (0 : Fin 1) q) := by
  obtain ⟨-, -, -, -, -, -, -, -, e0, e1, -⟩ := idx_facts0 t
  show V c main_v10 (((cfg0.win 4).blk t).view.emb (ix2 (0 : Fin 1) q)) = V c main_v10 (ix2 (0 : Fin 1) q)
  refine congrArg (V c main_v10) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## Region 0: the two output arrays -/

/-- An index of the array lies in point t's block of output window 5 iff each coordinate is in the block's range. -/
theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v11_0).slice (win0_5.rect t)).set ↔ _
  rw [View.set_slice_whole, Rect.mem_set_unit]
  exact Iff.rfl
theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v11_1).slice (win0_6.rect t)).set ↔ _
  rw [View.set_slice_whole, Rect.mem_set_unit]
  exact Iff.rfl

/-- Every row of the array is in the block of the point ⌊row / 5000⌋, which writes its block back. -/
theorem cover0_5_arr (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, -, -, -, -, -, -, e0, e1, -⟩ := idx_facts0 t
  have e0' : win0_5.index t (0 : Fin 2) = (i 0).val / 5000 := e0
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega
theorem cover0_6_arr (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, -, -, -, -, -, -, -, -, e0, e1⟩ := idx_facts0 t
  have e0' : win0_6.index t (0 : Fin 2) = (i 0).val / 5000 := e0
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE FIRST OUTPUT ARRAY of region 0 is G, given that the first payload at row p of point t's blocks is G at row 5000·t + p. -/
theorem final0_5 (G : S100000x128.Idx → Elt F .f32)
    (hG : ∀ (t : Fin cfg0.N) (p : Fin 5000) (q : Fin 128),
      k0_pay1 (iblk0 V c 0 t) (iblk0 V c 1 t) (iblk0 V c 2 t) (ix2 p q) = G (ix2 (row0 t p) q)) :
    (dat0 V c).arrAt 5 cfg0.N = G := by
  refine (dat0 V c).arrAt_eq_of_cover 5 G (fun t _ => ?_) (cover0_5_arr)
  show (cfg0.win 5).cut (grid0.coords t) ((dat0 V c).after 5 t) = _
  rw [after0_5]
  unfold out0_5
  rw [View.canon_unit_zero hz2]
  simp only [View.ld_unit_zero (S := S5000x130) hz2, View.ld_unit_zero (S := S130x128) hz2, View.ld_unit_zero (S := S1x128) hz2]
  obtain ⟨-, -, -, -, -, -, -, -, -, -, e0, e1, -⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q) = G (((cfg0.win 5).blk t).view.emb (ix2 p q))
  rw [hG t p q]
  refine congrArg G (funext fun a => Fin.ext ?_)
  match a with
  | ⟨0, _⟩ => show t.val * 5000 + p.val = win0_5.index t (0 : Fin 2) * 5000 + 1 * p.val; omega
  | ⟨1, _⟩ => show q.val = win0_5.index t (1 : Fin 2) * 128 + 1 * q.val; omega

/-- THE SECOND OUTPUT ARRAY of region 0, in the same way, from the second payload. -/
theorem final0_6 (G : S100000x128.Idx → Elt F .f32)
    (hG : ∀ (t : Fin cfg0.N) (p : Fin 5000) (q : Fin 128),
      k0_pay2 (iblk0 V c 0 t) (iblk0 V c 1 t) (iblk0 V c 2 t) (iblk0 V c 3 t) (iblk0 V c 4 t) (ix2 p q) = G (ix2 (row0 t p) q)) :
    (dat0 V c).arrAt 6 cfg0.N = G := by
  refine (dat0 V c).arrAt_eq_of_cover 6 G (fun t _ => ?_) (cover0_6_arr)
  show (cfg0.win 6).cut (grid0.coords t) ((dat0 V c).after 6 t) = _
  rw [after0_6]
  unfold out0_6
  rw [View.canon_unit_zero hz2]
  simp only [View.ld_unit_zero (S := S5000x130) hz2, View.ld_unit_zero (S := S130x128) hz2, View.ld_unit_zero (S := S1x128) hz2, View.ld_unit_zero (S := S128x128) hz2]
  obtain ⟨-, -, -, -, -, -, -, -, -, -, -, -, e0, e1⟩ := idx_facts0 t
  funext j
  obtain ⟨p, q, rfl⟩ : ∃ (p : Fin 5000) (q : Fin 128), j = ix2 p q := ⟨j 0, j 1, eq_ix2 j⟩
  show k0_pay2 (iblk0 V c 0 t) (iblk0 V c 1 t) (iblk0 V c 2 t) (iblk0 V c 3 t) (iblk0 V c 4 t) (ix2 p q) = G (((cfg0.win 6).blk t).view.emb (ix2 p q))
  rw [hG t p q]
  refine congrArg G (funext fun a => Fin.ext ?_)
  match a with
  | ⟨0, _⟩ => show t.val * 5000 + p.val = win0_6.index t (0 : Fin 2) * 5000 + 1 * p.val; omega
  | ⟨1, _⟩ => show q.val = win0_6.index t (1 : Fin 2) * 128 + 1 * q.val; omega

/-! ## Region 1: the input blocks and the output column -/

theorem iblk1_0_apply (t : Fin cfg1.N) (p : Fin 5000) (k : Fin 128) :
    iblk1 V c 0 t (ix2 p k) = V c main_v33 (ix2 (row1 t p) k) := by
  obtain ⟨e0, e1, -⟩ := idx_facts1 t
  show V c main_v33 (((cfg1.win 0).blk t).view.emb (ix2 p k)) = V c main_v33 (ix2 (row1 t p) k)
  refine congrArg (V c main_v33) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega
theorem iblk1_1_apply (t : Fin cfg1.N) (p : Fin 5000) (k : Fin 128) :
    iblk1 V c 1 t (ix2 p k) = V c main_v11_0 (ix2 (row1 t p) k) := by
  obtain ⟨-, -, e0, e1, -⟩ := idx_facts1 t
  show V c main_v11_0 (((cfg1.win 1).blk t).view.emb (ix2 p k)) = V c main_v11_0 (ix2 (row1 t p) k)
  refine congrArg (V c main_v11_0) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega
theorem iblk1_2_apply (t : Fin cfg1.N) (p : Fin 5000) (k : Fin 128) :
    iblk1 V c 2 t (ix2 p k) = V c main_v11_1 (ix2 (row1 t p) k) := by
  obtain ⟨-, -, -, -, e0, e1, -⟩ := idx_facts1 t
  show V c main_v11_1 (((cfg1.win 2).blk t).view.emb (ix2 p k)) = V c main_v11_1 (ix2 (row1 t p) k)
  refine congrArg (V c main_v11_1) (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * k.val = k.val; omega
theorem iblk1_3_apply (t : Fin cfg1.N) (k : Fin 128) (q : Fin 128) :
    iblk1 V c 3 t (ix2 k q) = V c main_arg7 (ix2 k q) := by
  obtain ⟨-, -, -, -, -, -, e0, e1, -⟩ := idx_facts1 t
  show V c main_arg7 (((cfg1.win 3).blk t).view.emb (ix2 k q)) = V c main_arg7 (ix2 k q)
  refine congrArg (V c main_arg7) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega
theorem iblk1_4_apply (t : Fin cfg1.N) (q : Fin 128) :
    iblk1 V c 4 t (ix2 (0 : Fin 1) q) = V c main_v34 (ix2 (0 : Fin 1) q) := by
  obtain ⟨-, -, -, -, -, -, -, -, e0, e1, -⟩ := idx_facts1 t
  show V c main_v34 (((cfg1.win 4).blk t).view.emb (ix2 (0 : Fin 1) q)) = V c main_v34 (ix2 (0 : Fin 1) q)
  refine congrArg (V c main_v34) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega
theorem iblk1_5_apply (t : Fin cfg1.N) (k : Fin 128) (q : Fin 128) :
    iblk1 V c 5 t (ix2 k q) = V c main_arg9 (ix2 k q) := by
  obtain ⟨-, -, -, -, -, -, -, -, -, -, e0, e1, -⟩ := idx_facts1 t
  show V c main_arg9 (((cfg1.win 5).blk t).view.emb (ix2 k q)) = V c main_arg9 (ix2 k q)
  refine congrArg (V c main_arg9) (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega
theorem iblk1_6_apply (t : Fin cfg1.N) (k : Fin 128) :
    iblk1 V c 6 t (ix2 k (0 : Fin 1)) = V c main_arg12 (ix2 k (0 : Fin 1)) := by
  obtain ⟨-, -, -, -, -, -, -, -, -, -, -, -, e0, e1, -⟩ := idx_facts1 t
  show V c main_arg12 (((cfg1.win 6).blk t).view.emb (ix2 k (0 : Fin 1))) = V c main_arg12 (ix2 k (0 : Fin 1))
  refine congrArg (V c main_arg12) (funext fun a => Fin.ext ?_)
  match a with
  | ⟨0, _⟩ => show win1_6.index t (0 : Fin 2) * 128 + 1 * k.val = k.val; omega
  | ⟨1, _⟩ => show win1_6.index t (1 : Fin 2) * 1 + 1 * 0 = 0; omega
theorem iblk1_7_apply (t : Fin cfg1.N) :
    iblk1 V c 7 t (ix2 (0 : Fin 1) (0 : Fin 1)) = V c main_v35 (ix2 (0 : Fin 1) (0 : Fin 1)) := by
  obtain ⟨-, -, -, -, -, -, -, -, -, -, -, -, -, -, e0, e1, -⟩ := idx_facts1 t
  show V c main_v35 (((cfg1.win 7).blk t).view.emb (ix2 (0 : Fin 1) (0 : Fin 1))) = V c main_v35 (ix2 (0 : Fin 1) (0 : Fin 1))
  refine congrArg (V c main_v35) (funext fun a => Fin.ext ?_)
  match a with
  | ⟨0, _⟩ => show win1_7.index t (0 : Fin 2) * 1 + 1 * 0 = 0; omega
  | ⟨1, _⟩ => show win1_7.index t (1 : Fin 2) * 1 + 1 * 0 = 0; omega

theorem mem_blk1_8 (t : Fin cfg1.N) (i : S100000x1.Idx) :
    i ∈ ((cfg1.win 8).blk t).view.set ↔ ∀ a : Fin 2, win1_8.index t a * S5000x1.size a ≤ (i a).val ∧ (i a).val < win1_8.index t a * S5000x1.size a + S5000x1.size a := by
  show i ∈ ((View.whole main_v36).slice (win1_8.rect t)).set ↔ _
  rw [View.set_slice_whole, Rect.mem_set_unit]
  exact Iff.rfl

theorem cover1_8_arr (i : S100000x1.Idx) : ∃ t : Fin cfg1.N, (cfg1.win 8).flush t = true ∧ i ∈ ((cfg1.win 8).blk t).view.set := by
  have hi0 : (i 0).val < 100000 := (i 0).isLt
  have hi1 : (i 1).val < 1 := (i 1).isLt
  let t : Fin cfg1.N := ⟨(i 0).val / 5000, lt_of_lt_of_eq (by omega : (i 0).val / 5000 < 20) N_1.symm⟩
  obtain ⟨-, -, -, -, -, -, -, -, -, -, -, -, -, -, -, -, e0, e1⟩ := idx_facts1 t
  have e0' : win1_8.index t (0 : Fin 2) = (i 0).val / 5000 := e0
  refine ⟨t, flush1_8 t, ?_⟩
  rw [mem_blk1_8]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 1 ≤ (i 1).val ∧ (i 1).val < win1_8.index t (1 : Fin 2) * 1 + 1; omega

/-- THE OUTPUT COLUMN of region 1 is G, given that the payload at row p of point t's blocks is G at row 5000·t + p. -/
theorem final1_8 (G : S100000x1.Idx → Elt F .f32)
    (hG : ∀ (t : Fin cfg1.N) (p : Fin 5000),
      k1_pay1 (iblk1 V c 0 t) (iblk1 V c 1 t) (iblk1 V c 3 t) (iblk1 V c 5 t) (iblk1 V c 4 t) (iblk1 V c 2 t) (iblk1 V c 6 t) (iblk1 V c 7 t) (ix2 p (0 : Fin 1)) = G (ix2 (row1 t p) (0 : Fin 1))) :
    (dat1 V c).arrAt 8 cfg1.N = G := by
  refine (dat1 V c).arrAt_eq_of_cover 8 G (fun t _ => ?_) (cover1_8_arr)
  show (cfg1.win 8).cut (grid1.coords t) ((dat1 V c).after 8 t) = _
  rw [after1_8]
  unfold out1_8
  rw [View.canon_unit_zero hz2]
  simp only [View.ld_unit_zero (S := S5000x128) hz2, View.ld_unit_zero (S := S128x128) hz2, View.ld_unit_zero (S := S1x128) hz2, View.ld_unit_zero (S := S128x1) hz2, View.ld_unit_zero (S := S1x1) hz2]
  obtain ⟨-, -, -, -, -, -, -, -, -, -, -, -, -, -, -, -, e0, e1⟩ := idx_facts1 t
  funext j
  obtain ⟨p, q, rfl⟩ : ∃ (p : Fin 5000) (q : Fin 1), j = ix2 p q := ⟨j 0, j 1, eq_ix2 j⟩
  obtain rfl : q = 0 := Subsingleton.elim _ _
  show k1_pay1 (iblk1 V c 0 t) (iblk1 V c 1 t) (iblk1 V c 3 t) (iblk1 V c 5 t) (iblk1 V c 4 t) (iblk1 V c 2 t) (iblk1 V c 6 t) (iblk1 V c 7 t) (ix2 p (0 : Fin 1)) = G (((cfg1.win 8).blk t).view.emb (ix2 p (0 : Fin 1)))
  rw [hG t p]
  refine congrArg G (funext fun a => Fin.ext ?_)
  match a with
  | ⟨0, _⟩ => show t.val * 5000 + p.val = win1_8.index t (0 : Fin 2) * 5000 + 1 * p.val; omega
  | ⟨1, _⟩ => show 0 = win1_8.index t (1 : Fin 2) * 1 + 1 * 0; omega

end

end Cert.KernelIdeal.Hand

end
-- ==== Proof.IndexForms.lean ====
import proofs.«163184_j48885317763310_1_alg».proof.Proof.Gen.KernelIdeal.Skeleton
import proofs.«163184_j48885317763310_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

/-!
# The dense stages read at one index

A graph layer: on every row, `xf = xin·W + b` (130 inputs), `hin = xf·W₂ + b₂`, and
`out = (relu(agg·Wl + bl + xf·Wr) + hin)·ws + bs`. Over the extended reals a rounding to a narrower
float is the identity and a matrix product into the zero accumulator is the plain sum of products, so
each stage of the blockwise computation and each stage of the whole-array computation, read at one
index, is the same explicit formula: an affine form of a row against a column of the weight.
-/

noncomputable section

namespace Cert.Forms

open Idealize.ShloMosaic Idealize.SL.Sem ValueIdx

/-- The affine form of a row against a column: `(∑ₖ xrowₖ · wcolₖ) + b`. -/
def affineRow {K : Nat} (xrow wcol : Fin K → EReal) (b : EReal) : EReal := (∑ k : Fin K, xrow k * wcol k) + b

/-- The rectifier: the larger of `z` and zero. -/
def relu0 (z : EReal) : EReal := max z (Ideal.ofBits .f32 0x00000000#32)

/-- The rectifier against the real zero: the zero word denotes `0`. -/
theorem relu0_eq_max_zero (z : EReal) : relu0 z = max z 0 := by
  unfold relu0
  rw [Ideal.ofBits_zero_f32]

/-! ## Matrix products into the zero accumulator, read at a row and a column -/

theorem mm130_l0 (i : Cert.KernelIdeal.S5000x128.Idx) (c : Cert.KernelIdeal.dot_S5000x130_S130x128_S5000x128_1_0_0_1_n_n.contr.Idx) :
    (Cert.KernelIdeal.dot_S5000x130_S130x128_S5000x128_1_0_0_1_n_n.lhsIdx i c 0).val = (i 0).val := by
  unfold DotDims.lhsIdx
  rw [dif_neg (show ¬(0 : Fin Cert.KernelIdeal.S5000x130.rank) ∈ Cert.KernelIdeal.dot_S5000x130_S130x128_S5000x128_1_0_0_1_n_n.lhsBatch by decide),
    dif_pos (show (0 : Fin Cert.KernelIdeal.S5000x130.rank) ∈ Cert.KernelIdeal.dot_S5000x130_S130x128_S5000x128_1_0_0_1_n_n.lhsNonContracting by decide)]
  rfl
theorem mm130_r1 (i : Cert.KernelIdeal.S5000x128.Idx) (c : Cert.KernelIdeal.dot_S5000x130_S130x128_S5000x128_1_0_0_1_n_n.contr.Idx) :
    (Cert.KernelIdeal.dot_S5000x130_S130x128_S5000x128_1_0_0_1_n_n.rhsIdx i c 1).val = (i 1).val := by
  unfold DotDims.rhsIdx
  rw [dif_neg (show ¬(1 : Fin Cert.KernelIdeal.S130x128.rank) ∈ Cert.KernelIdeal.dot_S5000x130_S130x128_S5000x128_1_0_0_1_n_n.rhsBatch by decide),
    dif_pos (show (1 : Fin Cert.KernelIdeal.S130x128.rank) ∈ Cert.KernelIdeal.dot_S5000x130_S130x128_S5000x128_1_0_0_1_n_n.rhsNonContracting by decide)]
  rfl

/-- A `[5000,130] × [130,128]` product into the zero accumulator at `(p, q)` is `∑ₖ l(p,k) · r(k,q)`. -/
theorem mm130 {φ₁ φ₂ : FTy} (l : FVec Ideal Cert.KernelIdeal.S5000x130 φ₁) (r : FVec Ideal Cert.KernelIdeal.S130x128 φ₂)
    (p : Fin 5000) (q : Fin 128) :
    matmul (F := Ideal) Cert.KernelIdeal.dot_S5000x130_S130x128_S5000x128_1_0_0_1_n_n none l r (constant (F := Ideal) Cert.KernelIdeal.S5000x128 .f32 0x00000000#32) (ix2 p q)
      = ∑ k : Fin 130, l (ix2 p k) * r (ix2 k q) := by
  refine (Ideal.matmul_constant_zero_apply Cert.KernelIdeal.dot_S5000x130_S130x128_S5000x128_1_0_0_1_n_n none l r (ix2 p q)).trans ?_
  rw [← Equiv.sum_comp (contrEquiv1 Cert.KernelIdeal.dot_S5000x130_S130x128_S5000x128_1_0_0_1_n_n 130 rfl rfl).symm]
  refine Finset.sum_congr rfl fun k _ => ?_
  have hk := contrEquiv1_symm_val Cert.KernelIdeal.dot_S5000x130_S130x128_S5000x128_1_0_0_1_n_n 130 rfl rfl k
  have el : Cert.KernelIdeal.dot_S5000x130_S130x128_S5000x128_1_0_0_1_n_n.lhsIdx (ix2 p q) ((contrEquiv1 Cert.KernelIdeal.dot_S5000x130_S130x128_S5000x128_1_0_0_1_n_n 130 rfl rfl).symm k) = ix2 p k :=
    funext fun a => Fin.ext (by
      match a with
      | ⟨0, _⟩ => exact mm130_l0 _ _
      | ⟨1, _⟩ => exact (Cert.KernelIdeal.dot_S5000x130_S130x128_S5000x128_1_0_0_1_n_n.lhsIdx_val_of_single rfl _ _).trans hk)
  have er : Cert.KernelIdeal.dot_S5000x130_S130x128_S5000x128_1_0_0_1_n_n.rhsIdx (ix2 p q) ((contrEquiv1 Cert.KernelIdeal.dot_S5000x130_S130x128_S5000x128_1_0_0_1_n_n 130 rfl rfl).symm k) = ix2 k q :=
    funext fun a => Fin.ext (by
      match a with
      | ⟨0, _⟩ => exact (Cert.KernelIdeal.dot_S5000x130_S130x128_S5000x128_1_0_0_1_n_n.rhsIdx_val_of_single rfl _ _).trans hk
      | ⟨1, _⟩ => exact mm130_r1 _ _)
  rw [el, er]

theorem mm128_l0 (i : Cert.KernelIdeal.S5000x128.Idx) (c : Cert.KernelIdeal.dot_S5000x128_S128x128_S5000x128_1_0_0_1_n_n.contr.Idx) :
    (Cert.KernelIdeal.dot_S5000x128_S128x128_S5000x128_1_0_0_1_n_n.lhsIdx i c 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide),
    dif_pos (show (0 : Fin Cert.KernelIdeal.S5000x128.rank) ∈ Cert.KernelIdeal.dot_S5000x128_S128x128_S5000x128_1_0_0_1_n_n.lhsNonContracting by decide)]
  rfl
theorem mm128_r1 (i : Cert.KernelIdeal.S5000x128.Idx) (c : Cert.KernelIdeal.dot_S5000x128_S128x128_S5000x128_1_0_0_1_n_n.contr.Idx) :
    (Cert.KernelIdeal.dot_S5000x128_S128x128_S5000x128_1_0_0_1_n_n.rhsIdx i c 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide),
    dif_pos (show (1 : Fin Cert.KernelIdeal.S128x128.rank) ∈ Cert.KernelIdeal.dot_S5000x128_S128x128_S5000x128_1_0_0_1_n_n.rhsNonContracting by decide)]
  rfl

/-- A `[5000,128] × [128,128]` product into the zero accumulator at `(p, q)` is `∑ₖ l(p,k) · r(k,q)`. -/
theorem mm128 {φ₁ φ₂ : FTy} (l : FVec Ideal Cert.KernelIdeal.S5000x128 φ₁) (r : FVec Ideal Cert.KernelIdeal.S128x128 φ₂)
    (p : Fin 5000) (q : Fin 128) :
    matmul (F := Ideal) Cert.KernelIdeal.dot_S5000x128_S128x128_S5000x128_1_0_0_1_n_n none l r (constant (F := Ideal) Cert.KernelIdeal.S5000x128 .f32 0x00000000#32) (ix2 p q)
      = ∑ k : Fin 128, l (ix2 p k) * r (ix2 k q) := by
  refine (Ideal.matmul_constant_zero_apply Cert.KernelIdeal.dot_S5000x128_S128x128_S5000x128_1_0_0_1_n_n none l r (ix2 p q)).trans ?_
  rw [← Equiv.sum_comp (contrEquiv1 Cert.KernelIdeal.dot_S5000x128_S128x128_S5000x128_1_0_0_1_n_n 128 rfl rfl).symm]
  refine Finset.sum_congr rfl fun k _ => ?_
  have hk := contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((contrEquiv1 Cert.KernelIdeal.dot_S5000x128_S128x128_S5000x128_1_0_0_1_n_n 128 rfl rfl).symm k) = ix2 p k :=
    funext fun a => Fin.ext (by
      match a with
      | ⟨0, _⟩ => exact mm128_l0 _ _
      | ⟨1, _⟩ => exact (Cert.KernelIdeal.dot_S5000x128_S128x128_S5000x128_1_0_0_1_n_n.lhsIdx_val_of_single rfl _ _).trans hk)
  have er : Cert.KernelIdeal.dot_S5000x128_S128x128_S5000x128_1_0_0_1_n_n.rhsIdx (ix2 p q) ((contrEquiv1 Cert.KernelIdeal.dot_S5000x128_S128x128_S5000x128_1_0_0_1_n_n 128 rfl rfl).symm k) = ix2 k q :=
    funext fun a => Fin.ext (by
      match a with
      | ⟨0, _⟩ => exact (Cert.KernelIdeal.dot_S5000x128_S128x128_S5000x128_1_0_0_1_n_n.rhsIdx_val_of_single rfl _ _).trans hk
      | ⟨1, _⟩ => exact mm128_r1 _ _)
  rw [el, er]

theorem mm128c_l0 (i : Cert.KernelIdeal.S5000x1.Idx) (c : Cert.KernelIdeal.dot_S5000x128_S128x1_S5000x1_1_0_0_1_n_n.contr.Idx) :
    (Cert.KernelIdeal.dot_S5000x128_S128x1_S5000x1_1_0_0_1_n_n.lhsIdx i c 0).val = (i 0).val := by
  unfold DotDims.lhsIdx
  rw [dif_neg (show ¬(0 : Fin Cert.KernelIdeal.S5000x128.rank) ∈ Cert.KernelIdeal.dot_S5000x128_S128x1_S5000x1_1_0_0_1_n_n.lhsBatch by decide),
    dif_pos (show (0 : Fin Cert.KernelIdeal.S5000x128.rank) ∈ Cert.KernelIdeal.dot_S5000x128_S128x1_S5000x1_1_0_0_1_n_n.lhsNonContracting by decide)]
  rfl
theorem mm128c_r1 (i : Cert.KernelIdeal.S5000x1.Idx) (c : Cert.KernelIdeal.dot_S5000x128_S128x1_S5000x1_1_0_0_1_n_n.contr.Idx) :
    (Cert.KernelIdeal.dot_S5000x128_S128x1_S5000x1_1_0_0_1_n_n.rhsIdx i c 1).val = (i 1).val := by
  unfold DotDims.rhsIdx
  rw [dif_neg (show ¬(1 : Fin Cert.KernelIdeal.S128x1.rank) ∈ Cert.KernelIdeal.dot_S5000x128_S128x1_S5000x1_1_0_0_1_n_n.rhsBatch by decide),
    dif_pos (show (1 : Fin Cert.KernelIdeal.S128x1.rank) ∈ Cert.KernelIdeal.dot_S5000x128_S128x1_S5000x1_1_0_0_1_n_n.rhsNonContracting by decide)]
  rfl

/-- A `[5000,128] × [128,1]` product into the zero accumulator at `(p, q)` is `∑ₖ l(p,k) · r(k,q)`. -/
theorem mm128c {φ₁ φ₂ : FTy} (l : FVec Ideal Cert.KernelIdeal.S5000x128 φ₁) (r : FVec Ideal Cert.KernelIdeal.S128x1 φ₂)
    (p : Fin 5000) (q : Fin 1) :
    matmul (F := Ideal) Cert.KernelIdeal.dot_S5000x128_S128x1_S5000x1_1_0_0_1_n_n none l r (constant (F := Ideal) Cert.KernelIdeal.S5000x1 .f32 0x00000000#32) (ix2 p q)
      = ∑ k : Fin 128, l (ix2 p k) * r (ix2 k q) := by
  refine (Ideal.matmul_constant_zero_apply Cert.KernelIdeal.dot_S5000x128_S128x1_S5000x1_1_0_0_1_n_n none l r (ix2 p q)).trans ?_
  rw [← Equiv.sum_comp (contrEquiv1 Cert.KernelIdeal.dot_S5000x128_S128x1_S5000x1_1_0_0_1_n_n 128 rfl rfl).symm]
  refine Finset.sum_congr rfl fun k _ => ?_
  have hk := contrEquiv1_symm_val Cert.KernelIdeal.dot_S5000x128_S128x1_S5000x1_1_0_0_1_n_n 128 rfl rfl k
  have el : Cert.KernelIdeal.dot_S5000x128_S128x1_S5000x1_1_0_0_1_n_n.lhsIdx (ix2 p q) ((contrEquiv1 Cert.KernelIdeal.dot_S5000x128_S128x1_S5000x1_1_0_0_1_n_n 128 rfl rfl).symm k) = ix2 p k :=
    funext fun a => Fin.ext (by
      match a with
      | ⟨0, _⟩ => exact mm128c_l0 _ _
      | ⟨1, _⟩ => exact (Cert.KernelIdeal.dot_S5000x128_S128x1_S5000x1_1_0_0_1_n_n.lhsIdx_val_of_single rfl _ _).trans hk)
  have er : Cert.KernelIdeal.dot_S5000x128_S128x1_S5000x1_1_0_0_1_n_n.rhsIdx (ix2 p q) ((contrEquiv1 Cert.KernelIdeal.dot_S5000x128_S128x1_S5000x1_1_0_0_1_n_n 128 rfl rfl).symm k) = ix2 k q :=
    funext fun a => Fin.ext (by
      match a with
      | ⟨0, _⟩ => exact (Cert.KernelIdeal.dot_S5000x128_S128x1_S5000x1_1_0_0_1_n_n.rhsIdx_val_of_single rfl _ _).trans hk
      | ⟨1, _⟩ => exact mm128c_r1 _ _)
  rw [el, er]

/-! ## The blockwise stages -/

/-- A `[1,128]` row broadcast over 5000 rows reads the row's entry. -/
theorem bcastRow (b : Vec Ideal Cert.KernelIdeal.S1x128 .f32) (p : Fin 5000) (q : Fin 128) :
    broadcastTo Cert.KernelIdeal.S5000x128 b Cert.KernelIdeal.Gen.broadcasts_S1x128_S5000x128 (ix2 p q) = b (ix2 0 q) :=
  broadcastTo_apply b _ (ix2 p q) (ix2 0 q) (fun a => by
    match a with
    | ⟨0, _⟩ => show 0 = if (1 : Nat) = 1 then 0 else _; rw [if_pos rfl]
    | ⟨1, _⟩ => show q.val = if (128 : Nat) = 1 then 0 else q.val; rw [if_neg (by decide)])

/-- The projected features: `xf(p,q) = (∑ₖ x(p,k) · W(k,q)) + b(q)`. -/
theorem pay_xf (x : Vec Ideal Cert.KernelIdeal.S5000x130 .f32) (w : Vec Ideal Cert.KernelIdeal.S130x128 .f32)
    (b : Vec Ideal Cert.KernelIdeal.S1x128 .f32) (p : Fin 5000) (q : Fin 128) :
    Cert.KernelIdeal.Gen.k0_pay1 (F := Ideal) x w b (ix2 p q)
      = affineRow (fun k : Fin 130 => x (ix2 p k)) (fun k => w (ix2 k q)) (b (ix2 0 q)) := by
  unfold Cert.KernelIdeal.Gen.k0_pay1 affineRow
  rw [shapeCast_self, shapeCast_self]
  refine (addf_apply _ _ _).trans ?_
  rw [mm130, bcastRow]
  rfl

/-- The residual branch: `hin(p,q) = (∑ₖ xf(p,k) · W₂(k,q)) + b₂(q)`. -/
theorem pay_hin (x : Vec Ideal Cert.KernelIdeal.S5000x130 .f32) (w : Vec Ideal Cert.KernelIdeal.S130x128 .f32)
    (b : Vec Ideal Cert.KernelIdeal.S1x128 .f32) (w2 : Vec Ideal Cert.KernelIdeal.S128x128 .f32)
    (b2 : Vec Ideal Cert.KernelIdeal.S1x128 .f32) (p : Fin 5000) (q : Fin 128) :
    Cert.KernelIdeal.Gen.k0_pay2 (F := Ideal) x w b w2 b2 (ix2 p q)
      = affineRow (fun k : Fin 128 => Cert.KernelIdeal.Gen.k0_pay1 (F := Ideal) x w b (ix2 p k))
          (fun k => w2 (ix2 k q)) (b2 (ix2 0 q)) := by
  unfold Cert.KernelIdeal.Gen.k0_pay2 affineRow
  generalize Cert.KernelIdeal.Gen.k0_pay1 (F := Ideal) x w b = xf
  rw [shapeCast_self]
  refine (addf_apply _ _ _).trans ?_
  rw [mm128, bcastRow]
  rfl

/-- A `[1,1]` entry broadcast over a column of 5000 rows reads the entry. -/
theorem bcastCol (b : Vec Ideal Cert.KernelIdeal.S1x1 .f32) (p : Fin 5000) :
    broadcastTo Cert.KernelIdeal.S5000x1 b Cert.KernelIdeal.Gen.broadcasts_S1x1_S5000x1 (ix2 p 0) = b (ix2 0 0) :=
  broadcastTo_apply b _ (ix2 p 0) (ix2 0 0) (fun a => by
    match a with
    | ⟨0, _⟩ => show 0 = if (1 : Nat) = 1 then 0 else _; rw [if_pos rfl]
    | ⟨1, _⟩ => show 0 = if (1 : Nat) = 1 then 0 else _; rw [if_pos rfl])

/-- The head: `out(p) = (∑ₖ (relu((∑ⱼ agg(p,j) · Wl(j,k)) + bl(k) + ∑ⱼ xf(p,j) · Wr(j,k)) + hin(p,k)) · ws(k)) + bs`. -/
theorem pay_out (a xf : Vec Ideal Cert.KernelIdeal.S5000x128 .f32) (wl wr : Vec Ideal Cert.KernelIdeal.S128x128 .f32)
    (bl : Vec Ideal Cert.KernelIdeal.S1x128 .f32) (hin : Vec Ideal Cert.KernelIdeal.S5000x128 .f32)
    (ws : Vec Ideal Cert.KernelIdeal.S128x1 .f32) (bs : Vec Ideal Cert.KernelIdeal.S1x1 .f32) (p : Fin 5000) :
    Cert.KernelIdeal.Gen.k1_pay1 (F := Ideal) a xf wl wr bl hin ws bs (ix2 p 0)
      = affineRow (fun k : Fin 128 =>
            relu0 (affineRow (fun j : Fin 128 => a (ix2 p j)) (fun j => wl (ix2 j k)) (bl (ix2 0 k))
              + ∑ j : Fin 128, xf (ix2 p j) * wr (ix2 j k)) + hin (ix2 p k))
          (fun k => ws (ix2 k 0)) (bs (ix2 0 0)) := by
  unfold Cert.KernelIdeal.Gen.k1_pay1 affineRow relu0
  rw [shapeCast_self, shapeCast_self, shapeCast_self, shapeCast_self, shapeCast_self]
  refine (addf_apply _ _ _).trans ?_
  rw [mm128c, bcastCol]
  refine congrArg (· + bs (ix2 0 0)) (Finset.sum_congr rfl fun k _ => ?_)
  refine congrArg (· * ws (ix2 k 0)) ?_
  show max ((matmul (F := Ideal) _ none _ _ _ (ix2 p k) + broadcastTo _ bl _ (ix2 p k)) + matmul (F := Ideal) _ none _ _ _ (ix2 p k)) _ + hin (ix2 p k) = _
  rw [mm128, mm128, bcastRow]
  rfl

/-! ## The whole-array stages -/

/-- The projected features on every row: `xf(r,q) = (∑ₖ xin(r,k) · W(k,q)) + b(q)`. -/
theorem ref_xf (x0 : (⟨Cert.ReferenceIdeal.S100000x128, .f32⟩ : BufTy).Contents (Elt Ideal)) (x1 x2 : (⟨Cert.ReferenceIdeal.S100000, .i32⟩ : BufTy).Contents (Elt Ideal))
    (x5 : (⟨Cert.ReferenceIdeal.S130x128, .f32⟩ : BufTy).Contents (Elt Ideal)) (x6 : (⟨Cert.ReferenceIdeal.S128, .f32⟩ : BufTy).Contents (Elt Ideal)) (r : Fin 100000) (q : Fin 128) :
    Cert.ReferenceIdeal.Read.val_main_v12 (F := Ideal) x0 x1 x2 x5 x6 (ix2 r q)
      = affineRow (fun k : Fin 130 => Cert.ReferenceIdeal.Read.val_main_v8 (F := Ideal) x0 x1 x2 (ix2 r k))
          (fun k => x5 (ix2 k q)) (x6 (ix1 q)) := by
  unfold affineRow
  rw [Cert.ReferenceIdeal.Read.val_main_v12_apply, Cert.ReferenceIdeal.Read.val_main_v9_apply, Cert.ReferenceIdeal.Read.val_main_v11_apply, Cert.ReferenceIdeal.Read.val_main_v10_apply]
  have el : ∀ k : Fin 130, Cert.ReferenceIdeal.Read.lidx_main_v9 (ix2 r q) k = ix2 r k := fun k => funext fun a => by match a with | ⟨0, _⟩ => rfl | ⟨1, _⟩ => rfl
  have er : ∀ k : Fin 130, Cert.ReferenceIdeal.Read.ridx_main_v9 (ix2 r q) k = ix2 k q := fun k => funext fun a => by match a with | ⟨0, _⟩ => rfl | ⟨1, _⟩ => rfl
  have eb : Cert.ReferenceIdeal.Read.idx_main_v10 (Cert.ReferenceIdeal.Read.idx_main_v11 (ix2 r q)) = ix1 q := funext fun a => by match a with | ⟨0, _⟩ => rfl
  rw [eb]
  refine congrArg (· + x6 (ix1 q)) (Finset.sum_congr rfl fun k _ => ?_)
  rw [el k, er k]

/-- The residual branch on every row: `hin(r,q) = (∑ₖ xf(r,k) · W₂(k,q)) + b₂(q)`. -/
theorem ref_hin (x0 : (⟨Cert.ReferenceIdeal.S100000x128, .f32⟩ : BufTy).Contents (Elt Ideal)) (x1 x2 : (⟨Cert.ReferenceIdeal.S100000, .i32⟩ : BufTy).Contents (Elt Ideal))
    (x5 : (⟨Cert.ReferenceIdeal.S130x128, .f32⟩ : BufTy).Contents (Elt Ideal)) (x6 : (⟨Cert.ReferenceIdeal.S128, .f32⟩ : BufTy).Contents (Elt Ideal))
    (x10 : (⟨Cert.ReferenceIdeal.S128x128, .f32⟩ : BufTy).Contents (Elt Ideal)) (x11 : (⟨Cert.ReferenceIdeal.S128, .f32⟩ : BufTy).Contents (Elt Ideal)) (r : Fin 100000) (q : Fin 128) :
    Cert.ReferenceIdeal.Read.val_main_v16 (F := Ideal) x0 x1 x2 x5 x6 x10 x11 (ix2 r q)
      = affineRow (fun k : Fin 128 => Cert.ReferenceIdeal.Read.val_main_v12 (F := Ideal) x0 x1 x2 x5 x6 (ix2 r k))
          (fun k => x10 (ix2 k q)) (x11 (ix1 q)) := by
  unfold affineRow
  rw [Cert.ReferenceIdeal.Read.val_main_v16_apply, Cert.ReferenceIdeal.Read.val_main_v13_apply, Cert.ReferenceIdeal.Read.val_main_v15_apply, Cert.ReferenceIdeal.Read.val_main_v14_apply]
  have el : ∀ k : Fin 128, Cert.ReferenceIdeal.Read.lidx_main_v13 (ix2 r q) k = ix2 r k := fun k => funext fun a => by match a with | ⟨0, _⟩ => rfl | ⟨1, _⟩ => rfl
  have er : ∀ k : Fin 128, Cert.ReferenceIdeal.Read.ridx_main_v13 (ix2 r q) k = ix2 k q := fun k => funext fun a => by match a with | ⟨0, _⟩ => rfl | ⟨1, _⟩ => rfl
  have eb : Cert.ReferenceIdeal.Read.idx_main_v14 (Cert.ReferenceIdeal.Read.idx_main_v15 (ix2 r q)) = ix1 q := funext fun a => by match a with | ⟨0, _⟩ => rfl
  rw [eb]
  refine congrArg (· + x11 (ix1 q)) (Finset.sum_congr rfl fun k _ => ?_)
  rw [el k, er k]

/-- The head on every row:
    `out(r) = (∑ₖ (relu((∑ⱼ agg(r,j) · Wl(j,k)) + bl(k) + ∑ⱼ xf(r,j) · Wr(j,k)) + hin(r,k)) · ws(k)) + bs`. -/
theorem ref_out (x0 : (⟨Cert.ReferenceIdeal.S100000x128, .f32⟩ : BufTy).Contents (Elt Ideal)) (x1 x2 : (⟨Cert.ReferenceIdeal.S100000, .i32⟩ : BufTy).Contents (Elt Ideal))
    (x3 : (⟨Cert.ReferenceIdeal.S2x600000, .i32⟩ : BufTy).Contents (Elt Ideal)) (x5 : (⟨Cert.ReferenceIdeal.S130x128, .f32⟩ : BufTy).Contents (Elt Ideal)) (x6 : (⟨Cert.ReferenceIdeal.S128, .f32⟩ : BufTy).Contents (Elt Ideal))
    (x7 : (⟨Cert.ReferenceIdeal.S128x128, .f32⟩ : BufTy).Contents (Elt Ideal)) (x8 : (⟨Cert.ReferenceIdeal.S128, .f32⟩ : BufTy).Contents (Elt Ideal)) (x9 x10 : (⟨Cert.ReferenceIdeal.S128x128, .f32⟩ : BufTy).Contents (Elt Ideal))
    (x11 : (⟨Cert.ReferenceIdeal.S128, .f32⟩ : BufTy).Contents (Elt Ideal)) (x12 : (⟨Cert.ReferenceIdeal.S128x1, .f32⟩ : BufTy).Contents (Elt Ideal)) (x13 : (⟨Cert.ReferenceIdeal.S1, .f32⟩ : BufTy).Contents (Elt Ideal)) (r : Fin 100000) :
    Cert.ReferenceIdeal.Read.val_main_v50 (F := Ideal) x0 x1 x2 x3 x5 x6 x7 x8 x9 x10 x11 x12 x13 (ix2 r 0)
      = affineRow (fun k : Fin 128 =>
            relu0 (affineRow (fun j : Fin 128 => Cert.ReferenceIdeal.Read.val_main_v38 (F := Ideal) x0 x1 x2 x3 x5 x6 (ix2 r j))
                (fun j => x7 (ix2 j k)) (x8 (ix1 k))
              + ∑ j : Fin 128, Cert.ReferenceIdeal.Read.val_main_v12 (F := Ideal) x0 x1 x2 x5 x6 (ix2 r j) * x9 (ix2 j k))
            + Cert.ReferenceIdeal.Read.val_main_v16 (F := Ideal) x0 x1 x2 x5 x6 x10 x11 (ix2 r k))
          (fun k => x12 (ix2 k 0)) (x13 (ix1 0)) := by
  unfold affineRow relu0
  rw [Cert.ReferenceIdeal.Read.val_main_v50_apply, Cert.ReferenceIdeal.Read.val_main_v47_apply, Cert.ReferenceIdeal.Read.val_main_v49_apply, Cert.ReferenceIdeal.Read.val_main_v48_apply]
  have el : ∀ k : Fin 128, Cert.ReferenceIdeal.Read.lidx_main_v47 (ix2 r 0) k = ix2 r k := fun k => funext fun a => by match a with | ⟨0, _⟩ => rfl | ⟨1, _⟩ => rfl
  have er : ∀ k : Fin 128, Cert.ReferenceIdeal.Read.ridx_main_v47 (ix2 r 0) k = ix2 k 0 := fun k => funext fun a => by match a with | ⟨0, _⟩ => rfl | ⟨1, _⟩ => rfl
  have eb : Cert.ReferenceIdeal.Read.idx_main_v48 (Cert.ReferenceIdeal.Read.idx_main_v49 (ix2 r 0)) = ix1 0 := funext fun a => by match a with | ⟨0, _⟩ => rfl
  rw [eb]
  refine congrArg (· + x13 (ix1 0)) (Finset.sum_congr rfl fun k _ => ?_)
  rw [el k, er k]
  refine congrArg (· * x12 (ix2 k 0)) ?_
  rw [Cert.ReferenceIdeal.Read.val_main_v46_apply, Cert.ReferenceIdeal.Read.val_main_v45_apply, Cert.ReferenceIdeal.Read.val_main_v44_apply, Cert.ReferenceIdeal.Read.val_main_v42_apply,
    Cert.ReferenceIdeal.Read.val_main_v39_apply, Cert.ReferenceIdeal.Read.val_main_v41_apply, Cert.ReferenceIdeal.Read.val_main_v40_apply, Cert.ReferenceIdeal.Read.val_main_v43_apply,
    Cert.ReferenceIdeal.Read.val_main_call0_v0_apply, Cert.ReferenceIdeal.Read.val_main_call0_cst_apply]
  have el39 : ∀ j : Fin 128, Cert.ReferenceIdeal.Read.lidx_main_v39 (ix2 r k) j = ix2 r j := fun j => funext fun a => by match a with | ⟨0, _⟩ => rfl | ⟨1, _⟩ => rfl
  have er39 : ∀ j : Fin 128, Cert.ReferenceIdeal.Read.ridx_main_v39 (ix2 r k) j = ix2 j k := fun j => funext fun a => by match a with | ⟨0, _⟩ => rfl | ⟨1, _⟩ => rfl
  have el43 : ∀ j : Fin 128, Cert.ReferenceIdeal.Read.lidx_main_v43 (ix2 r k) j = ix2 r j := fun j => funext fun a => by match a with | ⟨0, _⟩ => rfl | ⟨1, _⟩ => rfl
  have er43 : ∀ j : Fin 128, Cert.ReferenceIdeal.Read.ridx_main_v43 (ix2 r k) j = ix2 j k := fun j => funext fun a => by match a with | ⟨0, _⟩ => rfl | ⟨1, _⟩ => rfl
  have eb40 : Cert.ReferenceIdeal.Read.idx_main_v40 (Cert.ReferenceIdeal.Read.idx_main_v41 (ix2 r k)) = ix1 k := funext fun a => by match a with | ⟨0, _⟩ => rfl
  rw [eb40]
  simp only [el39, er39, el43, er43]
  rfl

end Cert.Forms

end
-- ==== Proof.HostGlue.lean ====
import proofs.«163184_j48885317763310_1_alg».proof.Proof.Gen.KernelIdeal.Regions
import proofs.«163184_j48885317763310_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

/-!
# The host operations between the kernel regions

The kernel program's @main runs three stretches of host operations around its two kernel regions. They are the
same operations, with the same literals, as the reference's; so each buffer a region reads, and the value @main
returns, is the reference's stage term of @main's arguments once the regions' outputs are the reference's stages:

* before region 0: the concatenation `[x | positions / 50 | lengths / 500]` and two biases reshaped `[128] → [1, 128]`;
* between the regions: the mean aggregation over the edges (gather the projected rows at the edge sources, add them up
  at the edge destinations, divide by `max (count, 1)`) and two more biases reshaped;
* after region 1: the column reshaped to a vector and blended, `a · reranker + (1 − a) · column` with `a = sigmoid alpha`.

Nothing is evaluated: every statement is an equation between the same composition of array operations, read off the
fold of the operations over the buffers' contents.
-/

noncomputable section

namespace Cert.KernelIdeal.Glue

open Cert.KernelIdeal Cert.KernelIdeal.Gen Idealize.ShloMosaic Idealize.ShloMosaic.TcCoe Idealize.SL.Sem ValueIdx
open Idealize.ShloMosaic.StableHlo
open Cert.ReferenceIdeal.Read

variable (m : (ℓ : Loc nD τ sig) → Buf (Elt Ideal) ℓ) (outs : Gen.Outs (F := Ideal)) (c : Dev nD)

/-! ## Reading a fold of host operations -/

/-- A three-operand operation's result, with each operand's contents at its own reference (so that the operands'
    contents can be read in turn: under the binder of the general statement the operand's reference is no literal). -/
theorem nary3_result {x a b y : Ref sig .tc}
    (f : ((k : Fin 3) → ((![x, a, b] : Fin 3 → Ref sig .tc) k).ty.Contents (Elt Ideal)) → y.ty.Contents (Elt Ideal)) (hxs hy)
    (V : Valuation τ sig (Elt Ideal)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Each operation's result read at its own result buffer, and at any other buffer what was there before. -/
local macro "results_loop" : tactic =>
  `(tactic| (repeat (first
               | rw [nary3_result]
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-! ## Before region 0 -/

/-- Region 0's input rows: the concatenation `[x | positions / 50 | lengths / 500]`. -/
theorem V1_v8 : Gen.V1 m c main_v8
    = val_main_v8 (F := Ideal) (m ((c : Thread nD τ).loc main_arg0)) (m ((c : Thread nD τ).loc main_arg1)) (m ((c : Thread nD τ).loc main_arg2)) := by
  dsimp only [Gen.V1, Gen.hostOps0]
  simp only [after_cons, after_nil]
  results_loop
  rfl

/-- The first projection's bias, reshaped `[128] → [1, 128]`. -/
theorem V1_v9_apply (q : Fin 128) : Gen.V1 m c main_v9 (ix2 0 q) = m ((c : Thread nD τ).loc main_arg6) (ix1 q) := by
  dsimp only [Gen.V1, Gen.hostOps0]
  simp only [after_cons, after_nil]
  results_loop
  exact shapeCast_a_1a_apply _ _ 0 q

/-- The residual projection's bias, reshaped `[128] → [1, 128]`. -/
theorem V1_v10_apply (q : Fin 128) : Gen.V1 m c main_v10 (ix2 0 q) = m ((c : Thread nD τ).loc main_arg11) (ix1 q) := by
  dsimp only [Gen.V1, Gen.hostOps0]
  simp only [after_cons, after_nil]
  results_loop
  exact shapeCast_a_1a_apply _ _ 0 q

/-- The first projection's weight is an argument: as launched. -/
theorem V1_arg5 : Gen.V1 m c main_arg5 = m ((c : Thread nD τ).loc main_arg5) :=
  (Gen.V1_of m c main_arg5 (by decide)).trans rfl

/-- The residual projection's weight is an argument: as launched. -/
theorem V1_arg10 : Gen.V1 m c main_arg10 = m ((c : Thread nD τ).loc main_arg10) :=
  (Gen.V1_of m c main_arg10 (by decide)).trans rfl

/-! ## Between the regions -/

/-- Region 0's first output (the projected rows) is still there when region 1 starts. -/
theorem V3_xf : Gen.V3 m outs c main_v11_0 = outs 2 main_v11_0 c :=
  (Gen.V3_of m outs c main_v11_0 (by decide)).trans (by
    dsimp only [Gen.V2]
    rw [Function.update_of_ne (StableHlo.devRef_ne_of_ne (by decide : main_v11_0 ≠ main_v11_1)), Function.update_self])

/-- Region 0's second output (the residual rows) is still there when region 1 starts. -/
theorem V3_hin : Gen.V3 m outs c main_v11_1 = outs 2 main_v11_1 c :=
  (Gen.V3_of m outs c main_v11_1 (by decide)).trans (by
    dsimp only [Gen.V2]
    rw [Function.update_self])

/-- An argument no host operation writes and region 0 may not change: as launched, when region 1 starts. -/
theorem V2_arg (r : Ref sig .tc) (h0 : r ∉ Gen.hostOps0_W) (h1 : r ∉ ([main_v11_0, main_v11_1] : List (Ref sig .tc))) :
    Gen.V2 m outs c r = m ((c : Thread nD τ).loc r) :=
  (Gen.V2_of m outs c r h1).trans ((Gen.V1_of m c r h0).trans rfl)

theorem V3_arg7 : Gen.V3 m outs c main_arg7 = m ((c : Thread nD τ).loc main_arg7) :=
  (Gen.V3_of m outs c main_arg7 (by decide)).trans (V2_arg m outs c main_arg7 (by decide) (by decide))
theorem V3_arg9 : Gen.V3 m outs c main_arg9 = m ((c : Thread nD τ).loc main_arg9) :=
  (Gen.V3_of m outs c main_arg9 (by decide)).trans (V2_arg m outs c main_arg9 (by decide) (by decide))
theorem V3_arg12 : Gen.V3 m outs c main_arg12 = m ((c : Thread nD τ).loc main_arg12) :=
  (Gen.V3_of m outs c main_arg12 (by decide)).trans (V2_arg m outs c main_arg12 (by decide) (by decide))

/-- The neighbour projection's bias, reshaped `[128] → [1, 128]`. -/
theorem V3_v34_apply (q : Fin 128) : Gen.V3 m outs c main_v34 (ix2 0 q) = m ((c : Thread nD τ).loc main_arg8) (ix1 q) := by
  have h8 := V2_arg m outs c main_arg8 (by decide) (by decide)
  dsimp only [Gen.V3, Gen.hostOps1]
  after_results_simp
  rw [h8]
  exact shapeCast_a_1a_apply _ _ 0 q

/-- The output bias, reshaped `[1] → [1, 1]`. -/
theorem V3_v35_apply : Gen.V3 m outs c main_v35 (ix2 0 0) = m ((c : Thread nD τ).loc main_arg13) (ix1 0) := by
  have h13 := V2_arg m outs c main_arg13 (by decide) (by decide)
  dsimp only [Gen.V3, Gen.hostOps1]
  after_results_simp
  rw [h13]
  exact shapeCast_a_1a_apply _ _ 0 0

/-- The mean aggregation: the projected rows gathered at the edge sources, added up at the edge destinations, divided by
    `max (count, 1)` — the reference's stage once region 0's first output is the reference's projected rows. -/
theorem V3_v33
    (h : outs 2 main_v11_0 c = val_main_v12 (F := Ideal) (m ((c : Thread nD τ).loc main_arg0)) (m ((c : Thread nD τ).loc main_arg1))
      (m ((c : Thread nD τ).loc main_arg2)) (m ((c : Thread nD τ).loc main_arg5)) (m ((c : Thread nD τ).loc main_arg6))) :
    Gen.V3 m outs c main_v33
      = val_main_v38 (F := Ideal) (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg6)) := by
  have hxf : Gen.V2 m outs c main_v11_0 = _ := ((Gen.V3_of m outs c main_v11_0 (by decide)).symm.trans (V3_xf m outs c)).trans h
  have h3 := V2_arg m outs c main_arg3 (by decide) (by decide)
  dsimp only [Gen.V3, Gen.hostOps1]
  after_results_simp
  rw [hxf, h3]
  simp only [val_main_v38, val_main_v37, val_main_v36, val_main_v35, val_main_cst_5, val_main_v34, val_main_v33, val_main_v32,
    val_main_cst_4, val_main_v31, val_main_cst_3, val_main_v30, val_main_v29, val_main_v28, val_main_cst_2, val_main_v27,
    val_main_v26, val_main_v25, val_main_v24, val_main_v23, val_main_c_1, val_main_v22, val_main_v21, val_main_c,
    val_main_v20, val_main_v19, val_main_v18, val_main_v17]
  rfl

/-! ## After region 1 -/

/-- An argument no host operation writes and no region may change: as launched, when the last host stretch starts. -/
theorem V4_arg (r : Ref sig .tc) (h0 : r ∉ Gen.hostOps0_W) (h1 : r ∉ ([main_v11_0, main_v11_1] : List (Ref sig .tc)))
    (h2 : r ∉ Gen.hostOps1_W) (h3 : r ∉ ([main_v36] : List (Ref sig .tc))) :
    Gen.V4 m outs c r = m ((c : Thread nD τ).loc r) :=
  (Gen.V4_of m outs c r h3).trans ((Gen.V3_of m outs c r h2).trans (V2_arg m outs c r h0 h1))

/-- Region 1's output is what the last host stretch starts from. -/
theorem V4_col : Gen.V4 m outs c main_v36 = outs 4 main_v36 c := by
  dsimp only [Gen.V4]
  rw [Function.update_self]

/-- The value @main returns: the column reshaped to a vector and blended with the reranker's scores,
    `a · reranker + (1 − a) · column` with `a = 1 / (1 + exp (−alpha))` — the reference's result once region 1's output is
    the reference's column. -/
theorem V5_v47
    (h : outs 4 main_v36 c = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :
    Gen.V5 m outs c main_v47
      = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have hcol : Gen.V4 m outs c main_v36 = _ := (V4_col m outs c).trans h
  have h4 := V4_arg m outs c main_arg4 (by decide) (by decide) (by decide) (by decide)
  have h14 := V4_arg m outs c main_arg14 (by decide) (by decide) (by decide) (by decide)
  dsimp only [Gen.V5, Gen.hostOps2]
  after_results_simp
  rw [hcol, h4, h14]
  simp only [val_main_v61, val_main_v60, val_main_v59, val_main_v58, val_main_cst_8, val_main_v57, val_main_v56, val_main_v55,
    val_main_cst_7, val_main_v54, val_main_cst_6, val_main_v53, val_main_v52, val_main_v51]
  rfl

end Cert.KernelIdeal.Glue

end
-- ==== Proof.Bridge.lean ====
/-
  The two programs compute one function. At the exact values the kernel program's two regions work row block by
  row block, and a row of a block is a row of the whole array: the first region leaves
  xf = xin·W + b and hin = xf·W₂ + b₂ on every row, the second leaves the column
  (relu(agg·Wl + bl + xf·Wr) + hin)·ws + bs on every row — each the same affine forms of rows against columns as the
  reference's whole-array stages. The host operations between and after the regions are the reference's own, applied to
  equal arrays. So the program's result buffer ends at the reference's result term of the arguments.
-/
import proofs.«163184_j48885317763310_1_alg».proof.Proof.RunIdeal
import proofs.«163184_j48885317763310_1_alg».proof.Proof.Blocks
import proofs.«163184_j48885317763310_1_alg».proof.Proof.IndexForms
import proofs.«163184_j48885317763310_1_alg».proof.Proof.HostGlue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Forms

variable (m : (ℓ : Loc nD τ sig) → Buf (Elt Ideal) ℓ) (c : Dev nD)

/-! ## Region 0: the projected features and the residual branch -/

/-- The first payload at row p of point t's blocks is the reference's xf at row 5000·t + p. -/
theorem xf_pt (t : Fin cfg0.N) (p : Fin 5000) (q : Fin 128) :
    k0_pay1 (F := Ideal) (iblk0 (E1 m) c 0 t) (iblk0 (E1 m) c 1 t) (iblk0 (E1 m) c 2 t) (ix2 p q)
      = Cert.ReferenceIdeal.Read.val_main_v12 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 (row0 t p) q) := by
  refine (pay_xf _ _ _ p q).trans ((ref_xf _ _ _ _ _ (row0 t p) q).trans ?_).symm
  refine congr (congr (congrArg affineRow (funext fun k => ?_)) (funext fun k => ?_)) ?_
  · exact ((iblk0_0_apply (E1 m) c t p k).trans (congrFun (Glue.V1_v8 m c) _)).symm
  · exact ((iblk0_1_apply (E1 m) c t k q).trans (congrFun (Glue.V1_arg5 m c) _)).symm
  · exact ((iblk0_2_apply (E1 m) c t q).trans (Glue.V1_v9_apply m c q)).symm

/-- What region 0 leaves in its first output array: the reference's xf. -/
theorem xf_arr : (dat0 (E1 m) c).arrAt 5 cfg0.N = Cert.ReferenceIdeal.Read.val_main_v12 (F := Ideal) (m ((c : Thread nD τ).loc main_arg0)) (m ((c : Thread nD τ).loc main_arg1)) (m ((c : Thread nD τ).loc main_arg2)) (m ((c : Thread nD τ).loc main_arg5)) (m ((c : Thread nD τ).loc main_arg6)) :=
  final0_5 (E1 m) c _ (xf_pt m c)

/-- The second payload at row p of point t's blocks is the reference's hin at row 5000·t + p. -/
theorem hin_pt (t : Fin cfg0.N) (p : Fin 5000) (q : Fin 128) :
    k0_pay2 (F := Ideal) (iblk0 (E1 m) c 0 t) (iblk0 (E1 m) c 1 t) (iblk0 (E1 m) c 2 t) (iblk0 (E1 m) c 3 t) (iblk0 (E1 m) c 4 t) (ix2 p q)
      = Cert.ReferenceIdeal.Read.val_main_v16 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg10)) (m ((c : Thread nD τ).loc main_arg11)) (ix2 (row0 t p) q) := by
  refine (pay_hin _ _ _ _ _ p q).trans ((ref_hin _ _ _ _ _ _ _ (row0 t p) q).trans ?_).symm
  refine congr (congr (congrArg affineRow (funext fun k => ?_)) (funext fun k => ?_)) ?_
  · exact (xf_pt m c t p k).symm
  · exact ((iblk0_3_apply (E1 m) c t k q).trans (congrFun (Glue.V1_arg10 m c) _)).symm
  · exact ((iblk0_4_apply (E1 m) c t q).trans (Glue.V1_v10_apply m c q)).symm

theorem hin_arr : (dat0 (E1 m) c).arrAt 6 cfg0.N = Cert.ReferenceIdeal.Read.val_main_v16 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg10)) (m ((c : Thread nD τ).loc main_arg11)) :=
  final0_6 (E1 m) c _ (hin_pt m c)

/-- The two arrays as the unknowns the valuations are written over. -/
theorem outsA_xf : outsA m 2 main_v11_0 c = Cert.ReferenceIdeal.Read.val_main_v12 (F := Ideal) (m ((c : Thread nD τ).loc main_arg0)) (m ((c : Thread nD τ).loc main_arg1)) (m ((c : Thread nD τ).loc main_arg2)) (m ((c : Thread nD τ).loc main_arg5)) (m ((c : Thread nD τ).loc main_arg6)) :=
  (W2_arr m c 5).trans (xf_arr m c)
theorem outsA_hin : outsA m 2 main_v11_1 c = Cert.ReferenceIdeal.Read.val_main_v16 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg10)) (m ((c : Thread nD τ).loc main_arg11)) :=
  (W2_arr m c 6).trans (hin_arr m c)

/-! ## Region 1: the head -/

/-- The head's payload at row p of point t's blocks is the reference's column at row 5000·t + p. -/
theorem col_pt (t : Fin cfg1.N) (p : Fin 5000) :
    k1_pay1 (F := Ideal) (iblk1 (E3 m) c 0 t) (iblk1 (E3 m) c 1 t) (iblk1 (E3 m) c 3 t) (iblk1 (E3 m) c 5 t) (iblk1 (E3 m) c 4 t) (iblk1 (E3 m) c 2 t) (iblk1 (E3 m) c 6 t) (iblk1 (E3 m) c 7 t) (ix2 p (0 : Fin 1))
      = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 (row1 t p) (0 : Fin 1)) := by
  refine (pay_out _ _ _ _ _ _ _ _ p).trans ((ref_out _ _ _ _ _ _ _ _ _ _ _ _ _ (row1 t p)).trans ?_).symm
  refine congr (congr (congrArg affineRow (funext fun k => ?_)) (funext fun k => ?_)) ?_
  · refine congr (congrArg HAdd.hAdd (congrArg relu0 (congr (congrArg HAdd.hAdd
      (congr (congr (congrArg affineRow (funext fun j => ?_)) (funext fun j => ?_)) ?_)) (Finset.sum_congr rfl fun j _ => ?_)))) ?_
    · exact ((iblk1_0_apply (E3 m) c t p j).trans (congrFun (Glue.V3_v33 m (outsA m) c (outsA_xf m c)) _)).symm
    · exact ((iblk1_3_apply (E3 m) c t j k).trans (congrFun (Glue.V3_arg7 m (outsA m) c) _)).symm
    · exact ((iblk1_4_apply (E3 m) c t k).trans (Glue.V3_v34_apply m (outsA m) c k)).symm
    · refine congr (congrArg HMul.hMul ?_) ?_
      · exact ((iblk1_1_apply (E3 m) c t p j).trans (congrFun ((Glue.V3_xf m (outsA m) c).trans (outsA_xf m c)) _)).symm
      · exact ((iblk1_5_apply (E3 m) c t j k).trans (congrFun (Glue.V3_arg9 m (outsA m) c) _)).symm
    · exact ((iblk1_2_apply (E3 m) c t p k).trans (congrFun ((Glue.V3_hin m (outsA m) c).trans (outsA_hin m c)) _)).symm
  · exact ((iblk1_6_apply (E3 m) c t k).trans (congrFun (Glue.V3_arg12 m (outsA m) c) _)).symm
  · exact ((iblk1_7_apply (E3 m) c t).trans (Glue.V3_v35_apply m (outsA m) c)).symm

theorem col_arr : (dat1 (E3 m) c).arrAt 8 cfg1.N = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  final1_8 (E3 m) c _ (col_pt m c)

theorem outs_col : outs m 4 main_v36 c = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (outs_four m main_v36 c).trans ((W4_arr m c 8).trans (col_arr m c))

/-! ## The result -/

/-- The result buffer after the last host stretch: the reference's result term of the arguments. -/
theorem result_eq : Gen.V5 m (outs m) c main_v47 = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  Glue.V5_v47 m (outs m) c (outs_col m c)

end Cert.KernelIdeal.Hand

end
-- ==== Proof.lean ====
/-
  The certificate of one graph layer against its reference.

  The kernel program computes, on 100000 nodes with 128 features: the input rows [x | position/50 | length/500],
  their projection xf = xin·W + b and the residual branch hin = xf·W₂ + b₂ in a first kernel region (20 blocks of
  5000 rows); the mean of xf over each node's incoming edges (a gather, two scatter-adds, a division) by host
  operations; the head (relu(agg·Wl + bl + xf·Wr) + hin)·ws + bs in a second kernel region (again 20 blocks of 5000
  rows); and a convex combination with the reranker's scores by host operations. The reference computes the same
  with whole-array matrix products.

  At the exact values the two agree index by index: a rounding to a narrower float is the identity, a matrix
  product into the zero accumulator is the plain sum of products, a row of a block of rows is a row of the whole
  array, and the host operations around the regions are the same operations applied to equal arrays. No law of
  arithmetic beyond that is needed, so the finiteness of the inputs is never used.

  The frames: each program is run item by item (host operations, region, host operations, region, host
  operations); a region's run is the pipeline's, the body's triple being found by symbolic execution; no item writes
  an argument array. The idealized kernel program is the kernel program's own text read at the exact values, so
  nothing is owed for the idealization.
-/
import proofs.«163184_j48885317763310_1_alg».proof.Defs
import proofs.«163184_j48885317763310_1_alg».proof.Proof.Gen.Kernel
import proofs.«163184_j48885317763310_1_alg».proof.Proof.Gen.KernelIdeal
import proofs.«163184_j48885317763310_1_alg».proof.Proof.Gen.ReferenceIdeal
import proofs.«163184_j48885317763310_1_alg».proof.Proof.Gen.Pre_finite_inputs
import proofs.«163184_j48885317763310_1_alg».proof.Proof.Gen.ReferenceIdeal.Run
import proofs.«163184_j48885317763310_1_alg».proof.Proof.Gen.ReferenceIdeal.Read
import proofs.«163184_j48885317763310_1_alg».proof.Proof.RunBits
import proofs.«163184_j48885317763310_1_alg».proof.Proof.RunIdeal
import proofs.«163184_j48885317763310_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_kernel : Cert.frame_Kernel := fun m ρ _ => Cert.Kernel.Hand.frame m ρ
/-- So does the kernel program read at the exact values. -/
theorem frame_kernelIdeal : Cert.frame_KernelIdeal := fun m ρ _ => Cert.KernelIdeal.Hand.frame m ρ
/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten to obtain the idealized program. -/
theorem preserves : Cert.preserves_Kernel_KernelIdeal := trivial

/-- At the exact values both programs, run from memories that agree on the arguments, end with the result buffer at
    the reference's result term of the arguments, and the arguments unchanged. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c =>
      ⟨(h c _ (Cert.KernelIdeal.Hand.mem_uc Cert.KernelIdeal.main_v47 (by decide))).trans (Cert.KernelIdeal.Hand.result_eq m c),
       (h c _ (Cert.KernelIdeal.Hand.mem_uc Cert.KernelIdeal.main_arg0 (by decide))).trans (Cert.KernelIdeal.Gen.V5_main_arg0 m (Cert.KernelIdeal.Hand.outs m) c),
       (h c _ (Cert.KernelIdeal.Hand.mem_uc Cert.KernelIdeal.main_arg1 (by decide))).trans (Cert.KernelIdeal.Gen.V5_main_arg1 m (Cert.KernelIdeal.Hand.outs m) c),
       (h c _ (Cert.KernelIdeal.Hand.mem_uc Cert.KernelIdeal.main_arg2 (by decide))).trans (Cert.KernelIdeal.Gen.V5_main_arg2 m (Cert.KernelIdeal.Hand.outs m) c),
       (h c _ (Cert.KernelIdeal.Hand.mem_uc Cert.KernelIdeal.main_arg3 (by decide))).trans (Cert.KernelIdeal.Gen.V5_main_arg3 m (Cert.KernelIdeal.Hand.outs m) c),
       (h c _ (Cert.KernelIdeal.Hand.mem_uc Cert.KernelIdeal.main_arg4 (by decide))).trans (Cert.KernelIdeal.Gen.V5_main_arg4 m (Cert.KernelIdeal.Hand.outs m) c),
       (h c _ (Cert.KernelIdeal.Hand.mem_uc Cert.KernelIdeal.main_arg5 (by decide))).trans (Cert.KernelIdeal.Gen.V5_main_arg5 m (Cert.KernelIdeal.Hand.outs m) c),
       (h c _ (Cert.KernelIdeal.Hand.mem_uc Cert.KernelIdeal.main_arg6 (by decide))).trans (Cert.KernelIdeal.Gen.V5_main_arg6 m (Cert.KernelIdeal.Hand.outs m) c),
       (h c _ (Cert.KernelIdeal.Hand.mem_uc Cert.KernelIdeal.main_arg7 (by decide))).trans (Cert.KernelIdeal.Gen.V5_main_arg7 m (Cert.KernelIdeal.Hand.outs m) c),
       (h c _ (Cert.KernelIdeal.Hand.mem_uc Cert.KernelIdeal.main_arg8 (by decide))).trans (Cert.KernelIdeal.Gen.V5_main_arg8 m (Cert.KernelIdeal.Hand.outs m) c),
       (h c _ (Cert.KernelIdeal.Hand.mem_uc Cert.KernelIdeal.main_arg9 (by decide))).trans (Cert.KernelIdeal.Gen.V5_main_arg9 m (Cert.KernelIdeal.Hand.outs m) c),
       (h c _ (Cert.KernelIdeal.Hand.mem_uc Cert.KernelIdeal.main_arg10 (by decide))).trans (Cert.KernelIdeal.Gen.V5_main_arg10 m (Cert.KernelIdeal.Hand.outs m) c),
       (h c _ (Cert.KernelIdeal.Hand.mem_uc Cert.KernelIdeal.main_arg11 (by decide))).trans (Cert.KernelIdeal.Gen.V5_main_arg11 m (Cert.KernelIdeal.Hand.outs m) c),
       (h c _ (Cert.KernelIdeal.Hand.mem_uc Cert.KernelIdeal.main_arg12 (by decide))).trans (Cert.KernelIdeal.Gen.V5_main_arg12 m (Cert.KernelIdeal.Hand.outs m) c),
       (h c _ (Cert.KernelIdeal.Hand.mem_uc Cert.KernelIdeal.main_arg13 (by decide))).trans (Cert.KernelIdeal.Gen.V5_main_arg13 m (Cert.KernelIdeal.Hand.outs m) c),
       (h c _ (Cert.KernelIdeal.Hand.mem_uc Cert.KernelIdeal.main_arg14 (by decide))).trans (Cert.KernelIdeal.Gen.V5_main_arg14 m (Cert.KernelIdeal.Hand.outs m) c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v61_eq, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
